-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x10 : Shape := ⟨2, ![100000, 10]⟩
abbrev S2x3200000 : Shape := ⟨2, ![2, 3200000]⟩
abbrev S3200000 : Shape := ⟨1, ![3200000]⟩
abbrev S10x10 : Shape := ⟨2, ![10, 10]⟩
abbrev S10 : Shape := ⟨1, ![10]⟩
abbrev S10x1 : Shape := ⟨2, ![10, 1]⟩
abbrev S1 : Shape := ⟨1, ![1]⟩
abbrev S_ : Shape := ⟨0, ![]⟩

class Facts : Prop where
  bcast_S_S100000x10 : S_.BroadcastsInDim S100000x10 (![] : Fin 0 → Fin S100000x10.rank)
  reducesTo_S100000x10_S_d0_1 : S100000x10.ReducesTo [0, 1] S_
  h_S_ : 0 < S_.numel
  bcast_S_S3200000 : S_.BroadcastsInDim S3200000 (![] : Fin 0 → Fin S3200000.rank)
  reducesTo_S3200000_S_d0 : S3200000.ReducesTo [0] S_
  bcast_S_S10x10 : S_.BroadcastsInDim S10x10 (![] : Fin 0 → Fin S10x10.rank)
  reducesTo_S10x10_S_d0_1 : S10x10.ReducesTo [0, 1] S_
  bcast_S_S10 : S_.BroadcastsInDim S10 (![] : Fin 0 → Fin S10.rank)
  reducesTo_S10_S_d0 : S10.ReducesTo [0] S_
  bcast_S_S10x1 : S_.BroadcastsInDim S10x1 (![] : Fin 0 → Fin S10x1.rank)
  reducesTo_S10x1_S_d0_1 : S10x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S10x10 .f32) (main_arg9 : FVec F S10x1 .f32) (main_arg10 : FVec F S1 .f32) (main_v33 : IVec S_ 1) : IVec S_ 1 :=
  let main_v34 : FVec F S10x10 .f32 := Host.absf main_arg8
  let main_cst_12 : FVec F S_ .f32 := constant S_ .f32 0x7F800000#32
  let main_v35 : FVec F S10x10 .f32 := broadcastInDim S10x10 ![] bcast_S_S10x10 main_cst_12
  let main_v36 : IVec S10x10 1 := cmpf .olt main_v34 main_v35
  let main_c_13 : IVec S_ 1 := constantI S_ 1 1#1
  let main_v37 : IVec S_ 1 := (fun x v => Host.reduce IntOp.andi x v reducesTo_S10x10_S_d0_1 h_S_) main_v36 main_c_13
  let main_v38 : IVec S_ 1 := andi main_v33 main_v37
  let main_v39 : FVec F S10x1 .f32 := Host.absf main_arg9
  let main_cst_14 : FVec F S_ .f32 := constant S_ .f32 0x7F800000#32
  let main_v40 : FVec F S10x1 .f32 := broadcastInDim S10x1 ![] bcast_S_S10x1 main_cst_14
  let main_v41 : IVec S10x1 1 := cmpf .olt main_v39 main_v40
  let main_c_15 : IVec S_ 1 := constantI S_ 1 1#1
  let main_v42 : IVec S_ 1 := (fun x v => Host.reduce IntOp.andi x v reducesTo_S10x1_S_d0_1 h_S_) main_v41 main_c_15
  let main_v43 : IVec S_ 1 := andi main_v38 main_v42
  let main_v44 : FVec F S1 .f32 := Host.absf main_arg10
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  main_v48

def fn_part1 {F : FTy → Type} [FloatOps F] (main_arg5 : FVec F S10x10 .f32) (main_arg6 : FVec F S10x10 .f32) (main_arg7 : FVec F S10 .f32) (main_arg8 : FVec F S10x10 .f32) (main_arg9 : FVec F S10x1 .f32) (main_arg10 : FVec F S1 .f32) (main_v13 : IVec S_ 1) (main_v16 : IVec S10 1) : IVec S_ 1 :=
  let main_c_5 : IVec S_ 1 := constantI S_ 1 1#1
  let main_v17 : IVec S_ 1 := (fun x v => Host.reduce IntOp.andi x v reducesTo_S10_S_d0 h_S_) main_v16 main_c_5
  let main_v18 : IVec S_ 1 := andi main_v13 main_v17
  let main_v19 : FVec F S10x10 .f32 := Host.absf main_arg5
  let main_cst_6 : FVec F S_ .f32 := constant S_ .f32 0x7F800000#32
  let main_v20 : FVec F S10x10 .f32 := broadcastInDim S10x10 ![] bcast_S_S10x10 main_cst_6
  let main_v21 : IVec S10x10 1 := cmpf .olt main_v19 main_v20
  let main_c_7 : IVec S_ 1 := constantI S_ 1 1#1
  let main_v22 : IVec S_ 1 := (fun x v => Host.reduce IntOp.andi x v reducesTo_S10x10_S_d0_1 h_S_) main_v21 main_c_7
  let main_v23 : IVec S_ 1 := andi main_v18 main_v22
  let main_v24 : FVec F S10x10 .f32 := Host.absf main_arg6
  let main_cst_8 : FVec F S_ .f32 := constant S_ .f32 0x7F800000#32
  let main_v25 : FVec F S10x10 .f32 := broadcastInDim S10x10 ![] bcast_S_S10x10 main_cst_8
  let main_v26 : IVec S10x10 1 := cmpf .olt main_v24 main_v25
  let main_c_9 : IVec S_ 1 := constantI S_ 1 1#1
  let main_v27 : IVec S_ 1 := (fun x v => Host.reduce IntOp.andi x v reducesTo_S10x10_S_d0_1 h_S_) main_v26 main_c_9
  let main_v28 : IVec S_ 1 := andi main_v23 main_v27
  let main_v29 : FVec F S10 .f32 := Host.absf main_arg7
  let main_cst_10 : FVec F S_ .f32 := constant S_ .f32 0x7F800000#32
  let main_v30 : FVec F S10 .f32 := broadcastInDim S10 ![] bcast_S_S10 main_cst_10
  let main_v31 : IVec S10 1 := cmpf .olt main_v29 main_v30
  let main_c_11 : IVec S_ 1 := constantI S_ 1 1#1
  let main_v32 : IVec S_ 1 := (fun x v => Host.reduce IntOp.andi x v reducesTo_S10_S_d0 h_S_) main_v31 main_c_11
  let main_v33 : IVec S_ 1 := andi main_v28 main_v32
  fn_part2 (F := F) main_arg8 main_arg9 main_arg10 main_v33

def fn {F : FTy → Type} [FloatOps F] (main_arg0 : FVec F S100000x10 .f32) (main_arg1 : IVec S2x3200000 32) (main_arg2 : FVec F S3200000 .f32) (main_arg3 : FVec F S10x10 .f32) (main_arg4 : FVec F S10 .f32) (main_arg5 : FVec F S10x10 .f32) (main_arg6 : FVec F S10x10 .f32) (main_arg7 : FVec F S10 .f32) (main_arg8 : FVec F S10x10 .f32) (main_arg9 : FVec F S10x1 .f32) (main_arg10 : FVec F S1 .f32) : IVec S_ 1 :=
  let main_v0 : FVec F S100000x10 .f32 := Host.absf main_arg0
  let main_cst : FVec F S_ .f32 := constant S_ .f32 0x7F800000#32
  let main_v1 : FVec F S100000x10 .f32 := broadcastInDim S100000x10 ![] bcast_S_S100000x10 main_cst
  let main_v2 : IVec S100000x10 1 := cmpf .olt main_v0 main_v1
  let main_c : IVec S_ 1 := constantI S_ 1 1#1
  let main_v3 : IVec S_ 1 := (fun x v => Host.reduce IntOp.andi x v reducesTo_S100000x10_S_d0_1 h_S_) main_v2 main_c
  let main_v4 : FVec F S3200000 .f32 := Host.absf main_arg2
  let main_cst_0 : FVec F S_ .f32 := constant S_ .f32 0x7F800000#32
  let main_v5 : FVec F S3200000 .f32 := broadcastInDim S3200000 ![] bcast_S_S3200000 main_cst_0
  let main_v6 : IVec S3200000 1 := cmpf .olt main_v4 main_v5
  let main_c_1 : IVec S_ 1 := constantI S_ 1 1#1
  let main_v7 : IVec S_ 1 := (fun x v => Host.reduce IntOp.andi x v reducesTo_S3200000_S_d0 h_S_) main_v6 main_c_1
  let main_v8 : IVec S_ 1 := andi main_v3 main_v7
  let main_v9 : FVec F S10x10 .f32 := Host.absf main_arg3
  let main_cst_2 : FVec F S_ .f32 := constant S_ .f32 0x7F800000#32
  let main_v10 : FVec F S10x10 .f32 := broadcastInDim S10x10 ![] bcast_S_S10x10 main_cst_2
  let main_v11 : IVec S10x10 1 := cmpf .olt main_v9 main_v10
  let main_c_3 : IVec S_ 1 := constantI S_ 1 1#1
  let main_v12 : IVec S_ 1 := (fun x v => Host.reduce IntOp.andi x v reducesTo_S10x10_S_d0_1 h_S_) main_v11 main_c_3
  let main_v13 : IVec S_ 1 := andi main_v8 main_v12
  let main_v14 : FVec F S10 .f32 := Host.absf main_arg4
  let main_cst_4 : FVec F S_ .f32 := constant S_ .f32 0x7F800000#32
  let main_v15 : FVec F S10 .f32 := broadcastInDim S10 ![] bcast_S_S10 main_cst_4
  let main_v16 : IVec S10 1 := cmpf .olt main_v14 main_v15
  fn_part1 (F := F) main_arg5 main_arg6 main_arg7 main_arg8 main_arg9 main_arg10 main_v13 main_v16
-- ==== Kernel.lean ====
abbrev S100000x10 : Shape := ⟨2, ![100000, 10]⟩
abbrev S2x3200000 : Shape := ⟨2, ![2, 3200000]⟩
abbrev S3200000 : Shape := ⟨1, ![3200000]⟩
abbrev S10x10 : Shape := ⟨2, ![10, 10]⟩
abbrev S10 : Shape := ⟨1, ![10]⟩
abbrev S10x1 : Shape := ⟨2, ![10, 1]⟩
abbrev S1 : Shape := ⟨1, ![1]⟩
abbrev S1x3200000 : Shape := ⟨2, ![1, 3200000]⟩
abbrev S_ : Shape := ⟨0, ![]⟩
abbrev S3200000x1 : Shape := ⟨2, ![3200000, 1]⟩
abbrev S3200000x10 : Shape := ⟨2, ![3200000, 10]⟩
abbrev S1x10 : Shape := ⟨2, ![1, 10]⟩
abbrev S5000x10 : Shape := ⟨2, ![5000, 10]⟩
abbrev S1x1 : Shape := ⟨2, ![1, 1]⟩
abbrev S100000x1 : Shape := ⟨2, ![100000, 1]⟩
abbrev S5000x1 : Shape := ⟨2, ![5000, 1]⟩

abbrev nBuf : Space → Nat
  | .hbm => 52
  | .vmem => 20
  | .smem => 0
  | _ => 0

abbrev bufTy : (tb : Table) → Fin (tcTables nBuf tb) → BufTy
  | .hbm, ⟨0, _⟩ => ⟨S100000x10, .f32⟩
  | .hbm, ⟨1, _⟩ => ⟨S2x3200000, .i32⟩
  | .hbm, ⟨2, _⟩ => ⟨S3200000, .f32⟩
  | .hbm, ⟨3, _⟩ => ⟨S10x10, .f32⟩
  | .hbm, ⟨4, _⟩ => ⟨S10, .f32⟩
  | .hbm, ⟨5, _⟩ => ⟨S10x10, .f32⟩
  | .hbm, ⟨6, _⟩ => ⟨S10x10, .f32⟩
  | .hbm, ⟨7, _⟩ => ⟨S10, .f32⟩
  | .hbm, ⟨8, _⟩ => ⟨S10x10, .f32⟩
  | .hbm, ⟨9, _⟩ => ⟨S10x1, .f32⟩
  | .hbm, ⟨10, _⟩ => ⟨S1, .f32⟩
  | .hbm, ⟨11, _⟩ => ⟨S1x3200000, .i32⟩
  | .hbm, ⟨12, _⟩ => ⟨S3200000, .i32⟩
  | .hbm, ⟨13, _⟩ => ⟨S1x3200000, .i32⟩
  | .hbm, ⟨14, _⟩ => ⟨S3200000, .i32⟩
  | .hbm, ⟨15, _⟩ => ⟨S_, .i32⟩
  | .hbm, ⟨16, _⟩ => ⟨S3200000, .i32⟩
  | .hbm, ⟨17, _⟩ => ⟨S3200000, .i1⟩
  | .hbm, ⟨18, _⟩ => ⟨S_, .i32⟩
  | .hbm, ⟨19, _⟩ => ⟨S3200000, .i32⟩
  | .hbm, ⟨20, _⟩ => ⟨S3200000, .i32⟩
  | .hbm, ⟨21, _⟩ => ⟨S3200000, .i32⟩
  | .hbm, ⟨22, _⟩ => ⟨S3200000x1, .i32⟩
  | .hbm, ⟨23, _⟩ => ⟨S3200000x10, .f32⟩
  | .hbm, ⟨24, _⟩ => ⟨S3200000x1, .f32⟩
  | .hbm, ⟨25, _⟩ => ⟨S3200000x10, .f32⟩
  | .hbm, ⟨26, _⟩ => ⟨S3200000x10, .f32⟩
  | .hbm, ⟨27, _⟩ => ⟨S_, .f32⟩
  | .hbm, ⟨28, _⟩ => ⟨S100000x10, .f32⟩
  | .hbm, ⟨29, _⟩ => ⟨S3200000x1, .i32⟩
  | .hbm, ⟨30, _⟩ => ⟨S100000x10, .f32⟩
  | .hbm, ⟨31, _⟩ => ⟨S1x10, .f32⟩
  | .hbm, ⟨32, _⟩ => ⟨S100000x10, .f32⟩
  | .hbm, ⟨33, _⟩ => ⟨S_, .i32⟩
  | .hbm, ⟨34, _⟩ => ⟨S3200000, .i32⟩
  | .hbm, ⟨35, _⟩ => ⟨S3200000, .i1⟩
  | .hbm, ⟨36, _⟩ => ⟨S_, .i32⟩
  | .hbm, ⟨37, _⟩ => ⟨S3200000, .i32⟩
  | .hbm, ⟨38, _⟩ => ⟨S3200000, .i32⟩
  | .hbm, ⟨39, _⟩ => ⟨S3200000, .i32⟩
  | .hbm, ⟨40, _⟩ => ⟨S3200000x1, .i32⟩
  | .hbm, ⟨41, _⟩ => ⟨S3200000x10, .f32⟩
  | .hbm, ⟨42, _⟩ => ⟨S3200000x1, .f32⟩
  | .hbm, ⟨43, _⟩ => ⟨S3200000x10, .f32⟩
  | .hbm, ⟨44, _⟩ => ⟨S3200000x10, .f32⟩
  | .hbm, ⟨45, _⟩ => ⟨S_, .f32⟩
  | .hbm, ⟨46, _⟩ => ⟨S100000x10, .f32⟩
  | .hbm, ⟨47, _⟩ => ⟨S3200000x1, .i32⟩
  | .hbm, ⟨48, _⟩ => ⟨S100000x10, .f32⟩
  | .hbm, ⟨49, _⟩ => ⟨S1x10, .f32⟩
  | .hbm, ⟨50, _⟩ => ⟨S1x1, .f32⟩
  | .hbm, ⟨51, _⟩ => ⟨S100000x1, .f32⟩
  | .local _ .vmem, ⟨0, _⟩ => ⟨S5000x10, .f32⟩
  | .local _ .vmem, ⟨1, _⟩ => ⟨S5000x10, .f32⟩
  | .local _ .vmem, ⟨2, _⟩ => ⟨S5000x10, .f32⟩
  | .local _ .vmem, ⟨3, _⟩ => ⟨S5000x10, .f32⟩
  | .local _ .vmem, ⟨4, _⟩ => ⟨S10x10, .f32⟩
  | .local _ .vmem, ⟨5, _⟩ => ⟨S1x10, .f32⟩
  | .local _ .vmem, ⟨6, _⟩ => ⟨S10x10, .f32⟩
  | .local _ .vmem, ⟨7, _⟩ => ⟨S5000x10, .f32⟩
  | .local _ .vmem, ⟨8, _⟩ => ⟨S5000x10, .f32⟩
  | .local _ .vmem, ⟨9, _⟩ => ⟨S5000x10, .f32⟩
  | .local _ .vmem, ⟨10, _⟩ => ⟨S5000x10, .f32⟩
  | .local _ .vmem, ⟨11, _⟩ => ⟨S5000x10, .f32⟩
  | .local _ .vmem, ⟨12, _⟩ => ⟨S5000x10, .f32⟩
  | .local _ .vmem, ⟨13, _⟩ => ⟨S10x10, .f32⟩
  | .local _ .vmem, ⟨14, _⟩ => ⟨S1x10, .f32⟩
  | .local _ .vmem, ⟨15, _⟩ => ⟨S10x10, .f32⟩
  | .local _ .vmem, ⟨16, _⟩ => ⟨S10x1, .f32⟩
  | .local _ .vmem, ⟨17, _⟩ => ⟨S1x1, .f32⟩
  | .local _ .vmem, ⟨18, _⟩ => ⟨S5000x1, .f32⟩
  | .local _ .vmem, ⟨19, _⟩ => ⟨S5000x1, .f32⟩
  | _, _ => ⟨S100000x10, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c_1 : Ref sig .tc := ⟨.hbm, 33, rfl⟩
abbrev main_v19 : Ref sig .tc := ⟨.hbm, 34, rfl⟩
abbrev main_v20 : Ref sig .tc := ⟨.hbm, 35, rfl⟩
abbrev main_c_2 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_3 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg7_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem7_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x10 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x10 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S10x10 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x10 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S10x10 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x10 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x10 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x10 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S10x10 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x10 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S10x10 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S10x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x1 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S3200000x1_S3200000x10_0_1 : S3200000x1.BroadcastsInDim S3200000x10 (![0, 1] : Fin 2 → Fin S3200000x10.rank)
  bcast_S_S100000x10 : S_.BroadcastsInDim S100000x10 (![] : Fin 0 → Fin S100000x10.rank)
  shapeCasts_S10_S1x10 : S10.ShapeCasts S1x10
  inb_S5000x10_S5000x10_0_0 : ∀ a, (![0, 0] : Fin 2 → Nat) a + S5000x10.size a ≤ S5000x10.size a
  h_S5000x10 : 0 < S5000x10.numel
  shapeCasts_S5000x10_S5000x10 : S5000x10.ShapeCasts S5000x10
  bitsLt_bf16_f32 : FTy.bits .bf16 < FTy.bits .f32
  inb_S10x10_S10x10_0_0 : ∀ a, (![0, 0] : Fin 2 → Nat) a + S10x10.size a ≤ S10x10.size a
  h_S10x10 : 0 < S10x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S5000x10 : S1x10.Broadcasts S5000x10
  shapeCasts_S1_S1x1 : S1.ShapeCasts S1x1
  inb_S10x1_S10x1_0_0 : ∀ a, (![0, 0] : Fin 2 → Nat) a + S10x1.size a ≤ S10x1.size a
  h_S10x1 : 0 < S10x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  gather_S100000x10_S3200000x1_S3200000x10_1_0_n_n_0_1_110_wf : GatherDims.WF S100000x10 S3200000x1 S3200000x10 [1] [0] [] [0] [] 1 ![1, 10]
  scatter_S100000x10_S3200000x1_S3200000x10_1_0_0_1_wf : ScatterDims.WF S100000x10 S3200000x1 S3200000x10 [1] [0] [0] 1
  dot_S5000x10_S10x10_S5000x10_1_0_0_1_n_n_wf : DotDims.WF S5000x10 S10x10 S5000x10 [1] [0] [0] [1] [] []
  dot_S5000x10_S10x1_S5000x1_1_0_0_1_n_n_wf : DotDims.WF S5000x10 S10x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x10.size a ≤ S100000x10.size a
  hwx0_0 : ∀ i : grid0.Coords, EltTy.bits .f32 = 32 ∨ (Rect.block (s := S100000x10) S5000x10.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x10.size a ≤ S100000x10.size a
  hwx0_1 : ∀ i : grid0.Coords, EltTy.bits .f32 = 32 ∨ (Rect.block (s := S100000x10) S5000x10.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S10x10.size a ≤ S10x10.size a
  hwx0_2 : ∀ i : grid0.Coords, EltTy.bits .f32 = 32 ∨ (Rect.block (s := S10x10) S10x10.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x10.size a ≤ S1x10.size a
  hwx0_3 : ∀ i : grid0.Coords, EltTy.bits .f32 = 32 ∨ (Rect.block (s := S1x10) S1x10.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S10x10.size a ≤ S10x10.size a
  hwx0_4 : ∀ i : grid0.Coords, EltTy.bits .f32 = 32 ∨ (Rect.block (s := S10x10) S10x10.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x10.size a ≤ S100000x10.size a
  hwx0_5 : ∀ i : grid0.Coords, EltTy.bits .f32 = 32 ∨ (Rect.block (s := S100000x10) S5000x10.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x10.size a ≤ S100000x10.size a
  hwx1_0 : ∀ i : grid1.Coords, EltTy.bits .f32 = 32 ∨ (Rect.block (s := S100000x10) S5000x10.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x10.size a ≤ S100000x10.size a
  hwx1_1 : ∀ i : grid1.Coords, EltTy.bits .f32 = 32 ∨ (Rect.block (s := S100000x10) S5000x10.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S10x10.size a ≤ S10x10.size a
  hwx1_2 : ∀ i : grid1.Coords, EltTy.bits .f32 = 32 ∨ (Rect.block (s := S10x10) S10x10.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x10.size a ≤ S1x10.size a
  hwx1_3 : ∀ i : grid1.Coords, EltTy.bits .f32 = 32 ∨ (Rect.block (s := S1x10) S1x10.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S10x10.size a ≤ S10x10.size a
  hwx1_4 : ∀ i : grid1.Coords, EltTy.bits .f32 = 32 ∨ (Rect.block (s := S10x10) S10x10.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S10x1.size a ≤ S10x1.size a
  hwx1_5 : ∀ i : grid1.Coords, EltTy.bits .f32 = 32 ∨ (Rect.block (s := S10x1) S10x1.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x1.size a ≤ S1x1.size a
  hwx1_6 : ∀ i : grid1.Coords, EltTy.bits .f32 = 32 ∨ (Rect.block (s := S1x1) S1x1.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x1.size a ≤ S100000x1.size a
  hwx1_7 : ∀ i : grid1.Coords, EltTy.bits .f32 = 32 ∨ (Rect.block (s := S100000x1) S5000x1.size (cc1_transform_7 i) (hinb1_7 i)).WholeWords (EltTy.packing .f32)

variable [Facts₀]

def gather_S100000x10_S3200000x1_S3200000x10_1_0_n_n_0_1_110 : GatherDims S100000x10 S3200000x1 S3200000x10 where
  offsetDims := [1]
  collapsedSliceDims := [0]
  operandBatchingDims := []
  startIndicesBatchingDims := []
  startIndexMap := [0]
  indexVectorDim := 1
  sliceSizes := ![1, 10]
  wf := gather_S100000x10_S3200000x1_S3200000x10_1_0_n_n_0_1_110_wf
def scatter_S100000x10_S3200000x1_S3200000x10_1_0_0_1 : ScatterDims S100000x10 S3200000x1 S3200000x10 where
  updateWindowDims := [1]
  insertedWindowDims := [0]
  scatterDimsToOperandDims := [0]
  indexVectorDim := 1
  wf := scatter_S100000x10_S3200000x1_S3200000x10_1_0_0_1_wf
def dot_S5000x10_S10x10_S5000x10_1_0_0_1_n_n : DotDims S5000x10 S10x10 S5000x10 where
  lhsContracting := [1]
  rhsContracting := [0]
  lhsNonContracting := [0]
  rhsNonContracting := [1]
  lhsBatch := []
  rhsBatch := []
  wf := dot_S5000x10_S10x10_S5000x10_1_0_0_1_n_n_wf
def dot_S5000x10_S10x1_S5000x1_1_0_0_1_n_n : DotDims S5000x10 S10x1 S5000x1 where
  lhsContracting := [1]
  rhsContracting := [0]
  lhsNonContracting := [0]
  rhsNonContracting := [1]
  lhsBatch := []
  rhsBatch := []
  wf := dot_S5000x10_S10x1_S5000x1_1_0_0_1_n_n_wf

abbrev win0_0 : Pipeline.Window sig grid0 :=
  Pipeline.Window.ofSpec (Memref.whole main_v16) S5000x10.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x10.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S10x10.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v17) S1x10.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S10x10.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v18) S5000x10.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v31) S5000x10.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S5000x10.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S10x10.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v32) S1x10.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S10x10.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg9) S10x1.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v33) S1x1.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v34) S5000x1.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S100000x10 : Shape := ⟨2, ![100000, 10]⟩
abbrev S2x3200000 : Shape := ⟨2, ![2, 3200000]⟩
abbrev S3200000 : Shape := ⟨1, ![3200000]⟩
abbrev S10x10 : Shape := ⟨2, ![10, 10]⟩
abbrev S10 : Shape := ⟨1, ![10]⟩
abbrev S10x1 : Shape := ⟨2, ![10, 1]⟩
abbrev S1 : Shape := ⟨1, ![1]⟩
abbrev S1x3200000 : Shape := ⟨2, ![1, 3200000]⟩
abbrev S_ : Shape := ⟨0, ![]⟩
abbrev S3200000x1 : Shape := ⟨2, ![3200000, 1]⟩
abbrev S3200000x10 : Shape := ⟨2, ![3200000, 10]⟩
abbrev S1x10 : Shape := ⟨2, ![1, 10]⟩
abbrev S100000x1 : Shape := ⟨2, ![100000, 1]⟩
abbrev S1x1 : Shape := ⟨2, ![1, 1]⟩

abbrev nBuf : Space → Nat
  | .hbm => 69
  | .vmem => 0
  | .smem => 0
  | _ => 0

abbrev bufTy : (tb : Table) → Fin (tcTables nBuf tb) → BufTy
  | .hbm, ⟨0, _⟩ => ⟨S100000x10, .f32⟩
  | .hbm, ⟨1, _⟩ => ⟨S2x3200000, .i32⟩
  | .hbm, ⟨2, _⟩ => ⟨S3200000, .f32⟩
  | .hbm, ⟨3, _⟩ => ⟨S10x10, .f32⟩
  | .hbm, ⟨4, _⟩ => ⟨S10, .f32⟩
  | .hbm, ⟨5, _⟩ => ⟨S10x10, .f32⟩
  | .hbm, ⟨6, _⟩ => ⟨S10x10, .f32⟩
  | .hbm, ⟨7, _⟩ => ⟨S10, .f32⟩
  | .hbm, ⟨8, _⟩ => ⟨S10x10, .f32⟩
  | .hbm, ⟨9, _⟩ => ⟨S10x1, .f32⟩
  | .hbm, ⟨10, _⟩ => ⟨S1, .f32⟩
  | .hbm, ⟨11, _⟩ => ⟨S1x3200000, .i32⟩
  | .hbm, ⟨12, _⟩ => ⟨S3200000, .i32⟩
  | .hbm, ⟨13, _⟩ => ⟨S1x3200000, .i32⟩
  | .hbm, ⟨14, _⟩ => ⟨S3200000, .i32⟩
  | .hbm, ⟨15, _⟩ => ⟨S_, .i32⟩
  | .hbm, ⟨16, _⟩ => ⟨S3200000, .i32⟩
  | .hbm, ⟨17, _⟩ => ⟨S3200000, .i1⟩
  | .hbm, ⟨18, _⟩ => ⟨S_, .i32⟩
  | .hbm, ⟨19, _⟩ => ⟨S3200000, .i32⟩
  | .hbm, ⟨20, _⟩ => ⟨S3200000, .i32⟩
  | .hbm, ⟨21, _⟩ => ⟨S3200000, .i32⟩
  | .hbm, ⟨22, _⟩ => ⟨S3200000x1, .i32⟩
  | .hbm, ⟨23, _⟩ => ⟨S3200000x10, .f32⟩
  | .hbm, ⟨24, _⟩ => ⟨S3200000x1, .f32⟩
  | .hbm, ⟨25, _⟩ => ⟨S3200000x10, .f32⟩
  | .hbm, ⟨26, _⟩ => ⟨S3200000x10, .f32⟩
  | .hbm, ⟨27, _⟩ => ⟨S_, .f32⟩
  | .hbm, ⟨28, _⟩ => ⟨S100000x10, .f32⟩
  | .hbm, ⟨29, _⟩ => ⟨S3200000x1, .i32⟩
  | .hbm, ⟨30, _⟩ => ⟨S100000x10, .f32⟩
  | .hbm, ⟨31, _⟩ => ⟨S100000x10, .f32⟩
  | .hbm, ⟨32, _⟩ => ⟨S1x10, .f32⟩
  | .hbm, ⟨33, _⟩ => ⟨S100000x10, .f32⟩
  | .hbm, ⟨34, _⟩ => ⟨S100000x10, .f32⟩
  | .hbm, ⟨35, _⟩ => ⟨S100000x10, .f32⟩
  | .hbm, ⟨36, _⟩ => ⟨S100000x10, .f32⟩
  | .hbm, ⟨37, _⟩ => ⟨S_, .f32⟩
  | .hbm, ⟨38, _⟩ => ⟨S100000x10, .f32⟩
  | .hbm, ⟨39, _⟩ => ⟨S100000x10, .f32⟩
  | .hbm, ⟨40, _⟩ => ⟨S_, .i32⟩
  | .hbm, ⟨41, _⟩ => ⟨S3200000, .i32⟩
  | .hbm, ⟨42, _⟩ => ⟨S3200000, .i1⟩
  | .hbm, ⟨43, _⟩ => ⟨S_, .i32⟩
  | .hbm, ⟨44, _⟩ => ⟨S3200000, .i32⟩
  | .hbm, ⟨45, _⟩ => ⟨S3200000, .i32⟩
  | .hbm, ⟨46, _⟩ => ⟨S3200000, .i32⟩
  | .hbm, ⟨47, _⟩ => ⟨S3200000x1, .i32⟩
  | .hbm, ⟨48, _⟩ => ⟨S3200000x10, .f32⟩
  | .hbm, ⟨49, _⟩ => ⟨S3200000x1, .f32⟩
  | .hbm, ⟨50, _⟩ => ⟨S3200000x10, .f32⟩
  | .hbm, ⟨51, _⟩ => ⟨S3200000x10, .f32⟩
  | .hbm, ⟨52, _⟩ => ⟨S_, .f32⟩
  | .hbm, ⟨53, _⟩ => ⟨S100000x10, .f32⟩
  | .hbm, ⟨54, _⟩ => ⟨S3200000x1, .i32⟩
  | .hbm, ⟨55, _⟩ => ⟨S100000x10, .f32⟩
  | .hbm, ⟨56, _⟩ => ⟨S100000x10, .f32⟩
  | .hbm, ⟨57, _⟩ => ⟨S1x10, .f32⟩
  | .hbm, ⟨58, _⟩ => ⟨S100000x10, .f32⟩
  | .hbm, ⟨59, _⟩ => ⟨S100000x10, .f32⟩
  | .hbm, ⟨60, _⟩ => ⟨S100000x10, .f32⟩
  | .hbm, ⟨61, _⟩ => ⟨S100000x10, .f32⟩
  | .hbm, ⟨62, _⟩ => ⟨S_, .f32⟩
  | .hbm, ⟨63, _⟩ => ⟨S100000x10, .f32⟩
  | .hbm, ⟨64, _⟩ => ⟨S100000x10, .f32⟩
  | .hbm, ⟨65, _⟩ => ⟨S100000x1, .f32⟩
  | .hbm, ⟨66, _⟩ => ⟨S1x1, .f32⟩
  | .hbm, ⟨67, _⟩ => ⟨S100000x1, .f32⟩
  | .hbm, ⟨68, _⟩ => ⟨S100000x1, .f32⟩
  | _, _ => ⟨S100000x10, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_call0_cst : Ref sig .tc := ⟨.hbm, 37, rfl⟩
abbrev main_call0_v0 : Ref sig .tc := ⟨.hbm, 38, rfl⟩
abbrev main_v23 : Ref sig .tc := ⟨.hbm, 39, rfl⟩
abbrev main_c_1 : Ref sig .tc := ⟨.hbm, 40, rfl⟩
abbrev main_v24 : Ref sig .tc := ⟨.hbm, 41, rfl⟩
abbrev main_v25 : Ref sig .tc := ⟨.hbm, 42, rfl⟩
abbrev main_c_2 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_3 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_call1_cst : Ref sig .tc := ⟨.hbm, 62, rfl⟩
abbrev main_call1_v0 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S3200000x1_S3200000x10_0_1 : S3200000x1.BroadcastsInDim S3200000x10 (![0, 1] : Fin 2 → Fin S3200000x10.rank)
  bcast_S_S100000x10 : S_.BroadcastsInDim S100000x10 (![] : Fin 0 → Fin S100000x10.rank)
  bcast_S10_S1x10_1 : S10.BroadcastsInDim S1x10 (![1] : Fin 1 → Fin S1x10.rank)
  bcast_S1x10_S100000x10_0_1 : S1x10.BroadcastsInDim S100000x10 (![0, 1] : Fin 2 → Fin S100000x10.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  gather_S100000x10_S3200000x1_S3200000x10_1_0_n_n_0_1_110_wf : GatherDims.WF S100000x10 S3200000x1 S3200000x10 [1] [0] [] [0] [] 1 ![1, 10]
  scatter_S100000x10_S3200000x1_S3200000x10_1_0_0_1_wf : ScatterDims.WF S100000x10 S3200000x1 S3200000x10 [1] [0] [0] 1
  dot_S100000x10_S10x10_S100000x10_1_0_0_1_n_n_wf : DotDims.WF S100000x10 S10x10 S100000x10 [1] [0] [0] [1] [] []
  dot_S100000x10_S10x1_S100000x1_1_0_0_1_n_n_wf : DotDims.WF S100000x10 S10x1 S100000x1 [1] [0] [0] [1] [] []

variable [Facts₀]

def gather_S100000x10_S3200000x1_S3200000x10_1_0_n_n_0_1_110 : GatherDims S100000x10 S3200000x1 S3200000x10 where
  offsetDims := [1]
  collapsedSliceDims := [0]
  operandBatchingDims := []
  startIndicesBatchingDims := []
  startIndexMap := [0]
  indexVectorDim := 1
  sliceSizes := ![1, 10]
  wf := gather_S100000x10_S3200000x1_S3200000x10_1_0_n_n_0_1_110_wf
def scatter_S100000x10_S3200000x1_S3200000x10_1_0_0_1 : ScatterDims S100000x10 S3200000x1 S3200000x10 where
  updateWindowDims := [1]
  insertedWindowDims := [0]
  scatterDimsToOperandDims := [0]
  indexVectorDim := 1
  wf := scatter_S100000x10_S3200000x1_S3200000x10_1_0_0_1_wf
def dot_S100000x10_S10x10_S100000x10_1_0_0_1_n_n : DotDims S100000x10 S10x10 S100000x10 where
  lhsContracting := [1]
  rhsContracting := [0]
  lhsNonContracting := [0]
  rhsNonContracting := [1]
  lhsBatch := []
  rhsBatch := []
  wf := dot_S100000x10_S10x10_S100000x10_1_0_0_1_n_n_wf
def dot_S100000x10_S10x1_S100000x1_1_0_0_1_n_n : DotDims S100000x10 S10x1 S100000x1 where
  lhsContracting := [1]
  rhsContracting := [0]
  lhsNonContracting := [0]
  rhsNonContracting := [1]
  lhsBatch := []
  rhsBatch := []
  wf := dot_S100000x10_S10x1_S100000x1_1_0_0_1_n_n_wf

class Facts : Prop extends Facts₀ where

variable [Facts]
-- ==== Proof.KernelRun.lean ====
/-
  The kernel program's run, with the final memory NAMED.

  The frame claim says only that the arguments end as launched. The launch of @main as its list of segments — host
  stretch, region, host stretch, region — gives more: every unscoped buffer of every core ends at the last segment
  boundary's contents (the fold of the host stretches and the regions' write-backs from the launch memory). That is
  where a value claim reads the result array.
-/
import proofs.«166976_j16226386444401_1_alg».proof.Proof.Gen.KernelIdeal.Frame

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with every unscoped buffer of every core at
    the contents the last segment boundary names. -/
theorem run_mem : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

end Cert.KernelIdeal.Whole

end
-- ==== Proof.LibMatmulZero.lean ====
/-
  A matrix product into the zero accumulator, read at one entry, at the ideal values.

  For ANY dimension numbers of an [R, K] × [K, C] → [R, C] product that contract the left operand's axis 1 with the
  right operand's axis 0 (one contracted axis, of extent K) and carry the left's axis 0 and the right's axis 1 to the
  result, any operand formats and any precision attribute: at the ideal values, `matmul` with the all-zero f32
  accumulator has, at entry (p, q), the value
      Σ_{k < K} l(p, k) · r(k, q).
  The sum over the contraction shape's one-axis index type is re-indexed over `Fin K`, and the operand indices the
  dimension numbers read at result entry (p, q) and contracted position k are (p, k) and (k, q).

  The two hypotheses `hl0` and `hr1` say that the result's axis 0 is the left operand's axis 0 and the result's axis 1
  the right operand's axis 1; for a printed record `D` (no batch axes) each is four lines:
      fun i c => by
        unfold DotDims.lhsIdx
        rw [dif_neg (show ¬(0 : Fin _) ∈ D.lhsBatch by decide), dif_pos (show (0 : Fin _) ∈ D.lhsNonContracting by decide)]
        rfl
  (and the same with `rhsIdx`, `1`, `rhsBatch`, `rhsNonContracting`); `hlc`, `hrc`, `hr`, `hs` are `rfl`.
  Imports only the library.
-/
import Idealize.ShloMosaic.PureOps.Ideal.Laws
import Idealize.ShloMosaic.Lib.ValueIdx

noncomputable section

namespace Cert.LibMatmulZero

open Idealize.ShloMosaic Idealize.ShloMosaic.ValueIdx

/-- `matmul D prec l r 0 (p, q) = Σ_k l(p, k) · r(k, q)` at the ideal values, for two-dimensional operands with one
    contracted axis. -/
theorem matmul_zero_ix2 {R K C : Nat} {φ₁ φ₂ : FTy} (D : DotDims ⟨2, ![R, K]⟩ ⟨2, ![K, C]⟩ ⟨2, ![R, C]⟩)
    (hlc : D.lhsContracting = [1]) (hrc : D.rhsContracting = [0]) (hr : D.contr.rank = 1)
    (hs : D.contr.size ⟨0, by omega⟩ = K)
    (hl0 : ∀ (i : (⟨2, ![R, C]⟩ : Shape).Idx) (c : D.contr.Idx), (D.lhsIdx i c 0).val = (i 0).val)
    (hr1 : ∀ (i : (⟨2, ![R, C]⟩ : Shape).Idx) (c : D.contr.Idx), (D.rhsIdx i c 1).val = (i 1).val)
    (prec : Option ContractPrecision)
    (l : FVec Ideal ⟨2, ![R, K]⟩ φ₁) (r : FVec Ideal ⟨2, ![K, C]⟩ φ₂) (p : Fin R) (q : Fin C) :
    matmul D prec l r (constant ⟨2, ![R, C]⟩ .f32 0x00000000#32) (ix2 p q) = ∑ k : Fin K, l (ix2 p k) * r (ix2 k q) := by
  refine (Ideal.matmul_constant_zero_apply D prec l r (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k :=
    funext fun a => Fin.ext (by
      match a with
      | ⟨0, _⟩ => exact hl0 _ _
      | ⟨1, _⟩ => exact (D.lhsIdx_val_of_single hlc _ _).trans hk)
  have er : D.rhsIdx (ix2 p q) ((contrEquiv1 D K hr hs).symm k) = ix2 k q :=
    funext fun a => Fin.ext (by
      match a with
      | ⟨0, _⟩ => exact (D.rhsIdx_val_of_single hrc _ _).trans hk
      | ⟨1, _⟩ => exact hr1 _ _)
  rw [el, er]

end Cert.LibMatmulZero

end
-- ==== Proof.Payload.lean ====
/-
  The two kernel bodies' arithmetic at one entry of the block they store.

  A body holds a 5000-row block of the neighbourhood sums and of the node features, the whole weight matrices and the
  bias row. At the ideal values a change of float format is the identity and a matrix product into the zero
  accumulator is the plain sum over the contracted axis, so entry (p, q) of what the first body stores is
      max (Σ_k a(p,k)·Wrel(k,q) + Σ_k x(p,k)·Wroot(k,q) + b(0,q), 0),
  and entry (p, 0) of what the second stores is the sum over j of that quantity at (p, j) times Wl(j, 0), plus bl(0, 0).
-/
import proofs.«166976_j16226386444401_1_alg».proof.Proof.Gen.KernelIdeal.Skeleton
import proofs.«166976_j16226386444401_1_alg».proof.Proof.LibMatmulZero
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Body

open Idealize.ShloMosaic Idealize.ShloMosaic.ValueIdx Cert.KernelIdeal Cert.KernelIdeal.Gen

/-! ## A matrix product into the zero accumulator, at an entry

The general statement is LibMatmulZero's; here it is read at the bodies' two dimension-number records. -/

/-- The two ten-by-ten products of either body. -/
theorem mm10_apply (l : FVec Ideal S5000x10 .bf16) (r : FVec Ideal S10x10 .bf16) (p : Fin 5000) (q : Fin 10) :
    matmul dot_S5000x10_S10x10_S5000x10_1_0_0_1_n_n none l r (constant S5000x10 .f32 0x00000000#32) (ix2 p q)
      = ∑ k : Fin 10, l (ix2 p k) * r (ix2 k q) :=
  Cert.LibMatmulZero.matmul_zero_ix2 dot_S5000x10_S10x10_S5000x10_1_0_0_1_n_n rfl rfl rfl rfl
    (fun i c => by
      unfold DotDims.lhsIdx
      rw [dif_neg (show ¬(0 : Fin S5000x10.rank) ∈ dot_S5000x10_S10x10_S5000x10_1_0_0_1_n_n.lhsBatch by decide),
        dif_pos (show (0 : Fin S5000x10.rank) ∈ dot_S5000x10_S10x10_S5000x10_1_0_0_1_n_n.lhsNonContracting by decide)]
      rfl)
    (fun i c => by
      unfold DotDims.rhsIdx
      rw [dif_neg (show ¬(1 : Fin S10x10.rank) ∈ dot_S5000x10_S10x10_S5000x10_1_0_0_1_n_n.rhsBatch by decide),
        dif_pos (show (1 : Fin S10x10.rank) ∈ dot_S5000x10_S10x10_S5000x10_1_0_0_1_n_n.rhsNonContracting by decide)]
      rfl)
    none l r p q

/-- The second body's product with the weight column. -/
theorem mm1_apply (l : FVec Ideal S5000x10 .bf16) (r : FVec Ideal S10x1 .bf16) (p : Fin 5000) (u : Fin 1) :
    matmul dot_S5000x10_S10x1_S5000x1_1_0_0_1_n_n none l r (constant S5000x1 .f32 0x00000000#32) (ix2 p u)
      = ∑ k : Fin 10, l (ix2 p k) * r (ix2 k u) :=
  Cert.LibMatmulZero.matmul_zero_ix2 dot_S5000x10_S10x1_S5000x1_1_0_0_1_n_n rfl rfl rfl rfl
    (fun i c => by
      unfold DotDims.lhsIdx
      rw [dif_neg (show ¬(0 : Fin S5000x10.rank) ∈ dot_S5000x10_S10x1_S5000x1_1_0_0_1_n_n.lhsBatch by decide),
        dif_pos (show (0 : Fin S5000x10.rank) ∈ dot_S5000x10_S10x1_S5000x1_1_0_0_1_n_n.lhsNonContracting by decide)]
      rfl)
    (fun i c => by
      unfold DotDims.rhsIdx
      rw [dif_neg (show ¬(1 : Fin S10x1.rank) ∈ dot_S5000x10_S10x1_S5000x1_1_0_0_1_n_n.rhsBatch by decide),
        dif_pos (show (1 : Fin S10x1.rank) ∈ dot_S5000x10_S10x1_S5000x1_1_0_0_1_n_n.rhsNonContracting by decide)]
      rfl)
    none l r p u

/-! ## The layer a body computes on its rows -/

/-- Entry (p, q) of a layer on a block of rows. -/
def rowsAt (a x : Vec Ideal S5000x10 .f32) (wr wo : Vec Ideal S10x10 .f32) (b : Vec Ideal S1x10 .f32)
    (p : Fin 5000) (q : Fin 10) : EReal :=
  max ((∑ k : Fin 10, a (ix2 p k) * wr (ix2 k q)) + (∑ k : Fin 10, x (ix2 p k) * wo (ix2 k q)) + b (ix2 (0 : Fin 1) q)) 0

/-- What the first body stores, at entry (p, q): the layer on its rows. -/
theorem pay0_apply (v0 v3 : Vec Ideal S5000x10 .f32) (v5 v7 : Vec Ideal S10x10 .f32) (v12 : Vec Ideal S1x10 .f32)
    (p : Fin 5000) (q : Fin 10) :
    k0_pay1 (F := Ideal) v0 v3 v5 v7 v12 (ix2 p q) = rowsAt v0 v3 v5 v7 v12 p q := by
  unfold k0_pay1 rowsAt
  simp only [maximumf_apply, addf_apply, broadcast_apply, shapeCast_self, mm10_apply, truncf_apply,
    broadcastTo_1b_ab_apply, Ideal.ofBits_def, Ideal.ofBits_zero_f32]

/-- What the second body stores, at entry (p, u): the layer on its rows, contracted with the weight column, plus
    the final bias. -/
theorem pay1_apply (v0 v3 : Vec Ideal S5000x10 .f32) (v6 v8 : Vec Ideal S10x10 .f32) (v13 : Vec Ideal S1x10 .f32)
    (v20 : Vec Ideal S10x1 .f32) (v23 : Vec Ideal S1x1 .f32) (p : Fin 5000) (u : Fin 1) :
    k1_pay1 (F := Ideal) v0 v3 v6 v8 v13 v20 v23 (ix2 p u)
      = (∑ j : Fin 10, rowsAt v0 v3 v6 v8 v13 p j * v20 (ix2 j u)) + v23 (ix2 (0 : Fin 1) u) := by
  unfold k1_pay1 rowsAt
  simp only [maximumf_apply, addf_apply, broadcast_apply, shapeCast_self, mm10_apply, mm1_apply, truncf_apply,
    broadcastTo_1b_ab_apply, Ideal.ofBits_def, Ideal.ofBits_zero_f32]

end Cert.KernelIdeal.Body

end
-- ==== Proof.Spec.lean ====
/-
  What the network computes, entry by entry, on the extended reals.

  A graph-convolution layer followed by the rectifier sends node features `x` (one row of ten per node) and the
  neighbourhood sums `a` (same shape) to
      max (a·Wrel + x·Wroot + b, 0),
  a [100000, 10] array whose entry (n, j) depends only on row n of `a` and of `x`. The final linear map sends
  hidden features `h` to  h·Wl + bl, a [100000, 1] array whose entry n depends only on row n of `h`.
  The neighbourhood sum itself — gather the source rows, weigh them, add them up per destination — is carried as
  an unopened function `agg` of the node features: both programs apply the same one.

  The network is two layers and the linear map, the second layer reading the first's output both directly and
  through the neighbourhood sum.

  The one algebraic law used anywhere: (p + b) + q = (p + q) + b, true in any commutative additive monoid, the
  extended reals included (no finiteness is needed).
-/
import Idealize.ShloMosaic.PureOps.Ideal
import Idealize.ShloMosaic.Lib.ValueIdx

noncomputable section

namespace Cert.GraphConv

open Idealize.ShloMosaic Idealize.ShloMosaic.ValueIdx

/-- Node features: one row of ten per node. -/
abbrev Nodes : Shape := ⟨2, ![100000, 10]⟩
/-- A ten-by-ten weight matrix. -/
abbrev Wts : Shape := ⟨2, ![10, 10]⟩
/-- The final map's ten-by-one weight column. -/
abbrev Col : Shape := ⟨2, ![10, 1]⟩
/-- The result: one number per node. -/
abbrev Out : Shape := ⟨2, ![100000, 1]⟩

/-- Entry (n, j) of a layer: the two matrix products' entries, the bias, the rectifier. -/
def convAt (a x : FVec Ideal Nodes .f32) (wr wo : FVec Ideal Wts .f32) (b : Fin 10 → EReal)
    (n : Fin 100000) (j : Fin 10) : EReal :=
  max ((∑ k : Fin 10, a (ix2 n k) * wr (ix2 k j)) + (∑ k : Fin 10, x (ix2 n k) * wo (ix2 k j)) + b j) 0

/-- A layer as one array. -/
def conv (a x : FVec Ideal Nodes .f32) (wr wo : FVec Ideal Wts .f32) (b : Fin 10 → EReal) : FVec Ideal Nodes .f32 :=
  fun i => convAt a x wr wo b (i 0) (i 1)

theorem conv_ix2 (a x : FVec Ideal Nodes .f32) (wr wo : FVec Ideal Wts .f32) (b : Fin 10 → EReal)
    (n : Fin 100000) (j : Fin 10) : conv a x wr wo b (ix2 n j) = convAt a x wr wo b n j := rfl

/-- The same entry with the bias added before the second product, as the reference groups it. -/
theorem convAt_bias_first (a x : FVec Ideal Nodes .f32) (wr wo : FVec Ideal Wts .f32) (b : Fin 10 → EReal)
    (n : Fin 100000) (j : Fin 10) :
    max (((∑ k : Fin 10, a (ix2 n k) * wr (ix2 k j)) + b j) + (∑ k : Fin 10, x (ix2 n k) * wo (ix2 k j))) 0
      = convAt a x wr wo b n j := by
  unfold convAt
  rw [add_right_comm]

/-- Entry n of the final linear map. -/
def headAt (h : FVec Ideal Nodes .f32) (wl : FVec Ideal Col .f32) (bl : EReal) (n : Fin 100000) : EReal :=
  (∑ j : Fin 10, h (ix2 n j) * wl (ix2 j (0 : Fin 1))) + bl

/-- The final linear map as one array. -/
def head (h : FVec Ideal Nodes .f32) (wl : FVec Ideal Col .f32) (bl : EReal) : FVec Ideal Out .f32 :=
  fun i => headAt h wl bl (i 0)

theorem head_ix2 (h : FVec Ideal Nodes .f32) (wl : FVec Ideal Col .f32) (bl : EReal) (n : Fin 100000) (u : Fin 1) :
    head h wl bl (ix2 n u) = headAt h wl bl n := rfl

/-- The whole network over an unopened neighbourhood sum `agg`. -/
def net (agg : FVec Ideal Nodes .f32 → FVec Ideal Nodes .f32) (x0 : FVec Ideal Nodes .f32)
    (w1r w1o : FVec Ideal Wts .f32) (b1 : Fin 10 → EReal) (w2r w2o : FVec Ideal Wts .f32) (b2 : Fin 10 → EReal)
    (wl : FVec Ideal Col .f32) (bl : EReal) : FVec Ideal Out .f32 :=
  head (conv (agg (conv (agg x0) x0 w1r w1o b1)) (conv (agg x0) x0 w1r w1o b1) w2r w2o b2) wl bl

end Cert.GraphConv

end
-- ==== Proof.Blocks0.lean ====
/-
  The first pallas_call: from what each grid point writes back to the whole output array.

  The grid has 20 points; point t stages rows 5000·t … 5000·t + 4999 of the neighbourhood sums and of the node
  features, the whole weight matrices and the bias row, and writes back the same rows of the output. Every entry of
  a layer depends only on its own row of the two row-blocked operands, so what point t writes back is block t of ONE
  whole-array function — the layer of the arrays as the region finds them — and the 20 blocks tile the output.
-/
import proofs.«166976_j16226386444401_1_alg».proof.Proof.Gen.KernelIdeal.Frame
import proofs.«166976_j16226386444401_1_alg».proof.Proof.Payload
import proofs.«166976_j16226386444401_1_alg».proof.Proof.Spec

set_option maxRecDepth 16384

noncomputable section

namespace Cert.KernelIdeal.Blocks

open Idealize.ShloMosaic Idealize.ShloMosaic.TcCoe Idealize.ShloMosaic.ValueIdx Idealize.SL.Sem
open Cert.KernelIdeal Cert.KernelIdeal.Gen Cert.KernelIdeal.Body Cert.GraphConv
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl

/-- The layer of the arrays the first region finds: neighbourhood sums, node features, the two weight matrices, and
    the bias read off its one row. -/
def G0 (c : Dev nD) : FVec Ideal Nodes .f32 :=
  conv (V c main_v16) (V c main_arg0) (V c main_arg3) (V c main_arg5) (fun j => V c main_v17 (ix2 (0 : Fin 1) j))

/-- One entry of the stored block against one entry of the layer, over plain variables: the rows agree, the
    whole-array operands are the arrays, the columns agree. -/
theorem point0 (x0 x1 : Vec Ideal S5000x10 .f32) (x2 x4 : Vec Ideal S10x10 .f32) (x3 : Vec Ideal S1x10 .f32)
    (A X : FVec Ideal Nodes .f32) (WR WO : FVec Ideal Wts .f32) (B : Fin 10 → EReal)
    (y : S5000x10.Idx) (i : Nodes.Idx) (hq : (i 1).val = (y 1).val)
    (h0 : ∀ k : Fin 10, x0 (ix2 (y 0) k) = A (ix2 (i 0) k)) (h1 : ∀ k : Fin 10, x1 (ix2 (y 0) k) = X (ix2 (i 0) k))
    (h2 : ∀ k j : Fin 10, x2 (ix2 k j) = WR (ix2 k j)) (h4 : ∀ k j : Fin 10, x4 (ix2 k j) = WO (ix2 k j))
    (h3 : ∀ j : Fin 10, x3 (ix2 (0 : Fin 1) j) = B j) :
    k0_pay1 (F := Ideal) x0 x1 x2 x4 x3 y = conv A X WR WO B i := by
  obtain ⟨p, q, rfl⟩ : ∃ (p : Fin 5000) (q : Fin 10), y = ix2 p q := ⟨y 0, y 1, eq_ix2 y⟩
  obtain ⟨n, j, rfl⟩ : ∃ (n : Fin 100000) (j : Fin 10), i = ix2 n j := ⟨i 0, i 1, eq_ix2 i⟩
  obtain rfl : j = q := Fin.ext hq
  rw [pay0_apply, conv_ix2]
  unfold rowsAt convAt
  simp only [h0, h1, h2, h4, h3]

/-- The printed index maps, decided once over the grid: the two row-blocked inputs move with the output along the
    rows, every other block index is zero, and the output's row-block index is the point's number, below 20. -/
theorem idx_facts0 : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) ≤ 19 ∧ win0_5.index t (1 : Fin 2) = 0 :=
  (by decide +kernel : ∀ t : Fin grid0.N, _)

/-- Every row block is some point's. -/
theorem idx_onto0 : ∀ q0 : Fin 20, ∃ t : Fin cfg0.N, win0_5.index t = ![q0.val, 0] :=
  (by decide +kernel : ∀ q0 : Fin 20, ∃ t : Fin grid0.N, win0_5.index t = ![q0.val, 0])

/-- WHAT POINT t WRITES BACK is block t of the layer of the arrays as the region finds them. -/
theorem flushed0_eq (c : Dev nD) (t : Fin cfg0.N) :
    (dat0 V c).flushed 5 t = ((cfg0.win 5).blk t).view.read (Elt Ideal) (G0 V c) := by
  show (cfg0.win 5).cut (grid0.coords t) ((dat0 V c).after 5 t) = _
  rw [after0_5]
  unfold out0_5
  rw [View.canon_unit_zero hz2]
  simp only [View.ld_unit_zero (S := S5000x10) hz2, View.ld_unit_zero (S := S10x10) hz2, View.ld_unit_zero (S := S1x10) hz2]
  obtain ⟨e00, e01, e10, e11, e20, e21, e30, e31, e40, e41, -, e51⟩ := idx_facts0 t
  funext y
  show k0_pay1 (F := Ideal) (iblk0 V c 0 t) (iblk0 V c 1 t) (iblk0 V c 2 t) (iblk0 V c 4 t) (iblk0 V c 3 t) y
    = G0 V c (((cfg0.win 5).blk t).view.emb y)
  have hy0 : (y 0).val < 5000 := (y 0).isLt
  have hy1 : (y 1).val < 10 := (y 1).isLt
  refine point0 (iblk0 V c 0 t) (iblk0 V c 1 t) (iblk0 V c 2 t) (iblk0 V c 4 t) (iblk0 V c 3 t)
    (V c main_v16) (V c main_arg0) (V c main_arg3) (V c main_arg5) (fun j => V c main_v17 (ix2 (0 : Fin 1) j))
    y (((cfg0.win 5).blk t).view.emb y) ?_ ?_ ?_ ?_ ?_ ?_
  · show win0_5.index t (1 : Fin 2) * 10 + 1 * (y 1).val = (y 1).val
    omega
  · intro k
    show V c main_v16 (((cfg0.win 0).blk t).view.emb (ix2 (y 0) k)) = V c main_v16 (ix2 ((((cfg0.win 5).blk t).view.emb y) 0) k)
    refine congrArg (V c main_v16) (funext fun a => Fin.ext ?_)
    match a with
    | ⟨0, _⟩ => show win0_0.index t (0 : Fin 2) * 5000 + 1 * (y 0).val = win0_5.index t (0 : Fin 2) * 5000 + 1 * (y 0).val; omega
    | ⟨1, _⟩ => show win0_0.index t (1 : Fin 2) * 10 + 1 * k.val = k.val; omega
  · intro k
    show V c main_arg0 (((cfg0.win 1).blk t).view.emb (ix2 (y 0) k)) = V c main_arg0 (ix2 ((((cfg0.win 5).blk t).view.emb y) 0) k)
    refine congrArg (V c main_arg0) (funext fun a => Fin.ext ?_)
    match a with
    | ⟨0, _⟩ => show win0_1.index t (0 : Fin 2) * 5000 + 1 * (y 0).val = win0_5.index t (0 : Fin 2) * 5000 + 1 * (y 0).val; omega
    | ⟨1, _⟩ => show win0_1.index t (1 : Fin 2) * 10 + 1 * k.val = k.val; omega
  · intro k j
    show V c main_arg3 (((cfg0.win 2).blk t).view.emb (ix2 k j)) = V c main_arg3 (ix2 k j)
    refine congrArg (V c main_arg3) (funext fun a => Fin.ext ?_)
    match a with
    | ⟨0, _⟩ => show win0_2.index t (0 : Fin 2) * 10 + 1 * k.val = k.val; omega
    | ⟨1, _⟩ => show win0_2.index t (1 : Fin 2) * 10 + 1 * j.val = j.val; omega
  · intro k j
    show V c main_arg5 (((cfg0.win 4).blk t).view.emb (ix2 k j)) = V c main_arg5 (ix2 k j)
    refine congrArg (V c main_arg5) (funext fun a => Fin.ext ?_)
    match a with
    | ⟨0, _⟩ => show win0_4.index t (0 : Fin 2) * 10 + 1 * k.val = k.val; omega
    | ⟨1, _⟩ => show win0_4.index t (1 : Fin 2) * 10 + 1 * j.val = j.val; omega
  · intro j
    show V c main_v17 (((cfg0.win 3).blk t).view.emb (ix2 (0 : Fin 1) j)) = V c main_v17 (ix2 (0 : Fin 1) j)
    refine congrArg (V c main_v17) (funext fun a => Fin.ext ?_)
    match a with
    | ⟨0, _⟩ => show win0_3.index t (0 : Fin 2) * 1 + 1 * 0 = 0; omega
    | ⟨1, _⟩ => show win0_3.index t (1 : Fin 2) * 10 + 1 * j.val = j.val; omega

/-- An index of the output array is in point t's block iff each coordinate is in the block's range on its axis. -/
theorem mem_blk0 (t : Fin cfg0.N) (i : S100000x10.Idx) :
    i ∈ ((cfg0.win 5).blk t).view.set ↔ ∀ a : Fin 2, win0_5.index t a * S5000x10.size a ≤ (i a).val ∧ (i a).val < win0_5.index t a * S5000x10.size a + S5000x10.size a := by
  show i ∈ ((View.whole main_v18).slice (win0_5.rect t)).set ↔ _
  rw [View.set_slice_whole, Rect.mem_set_unit]
  exact Iff.rfl

/-- The 20 row blocks tile the output: row r lies in the block of point r / 5000. -/
theorem cover0 (i : S100000x10.Idx) : ∃ t : Fin cfg0.N, (cfg0.win 5).flush t = true ∧ i ∈ ((cfg0.win 5).blk t).view.set := by
  have hi0 : (i 0).val < 100000 := (i 0).isLt
  have hi1 : (i 1).val < 10 := (i 1).isLt
  obtain ⟨t, ht⟩ := idx_onto0 ⟨(i 0).val / 5000, by omega⟩
  have q0 : win0_5.index t (0 : Fin 2) = (i 0).val / 5000 := congrFun ht 0
  have q1 : win0_5.index t (1 : Fin 2) = 0 := congrFun ht 1
  refine ⟨t, flush0_5 t, ?_⟩
  rw [mem_blk0]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 10 ≤ (i 1).val ∧ (i 1).val < win0_5.index t (1 : Fin 2) * 10 + 10; omega

/-- THE OUTPUT ARRAY after the first region: the layer of the arrays as the region finds them. -/
theorem final0 (c : Dev nD) : (dat0 V c).arrAt 5 cfg0.N = G0 V c :=
  (dat0 V c).arrAt_eq_of_cover 5 (G0 V c) (fun t _ => flushed0_eq V c t) (cover0)

end Cert.KernelIdeal.Blocks

end
-- ==== Proof.Blocks1.lean ====
/-
  The second pallas_call: from what each grid point writes back to the whole result array.

  Again 20 points; point t stages rows 5000·t … 5000·t + 4999 of the second neighbourhood sums and of the first
  layer's output, the whole weight matrices, the bias row, the weight column and the final bias, and writes back the
  same rows of the one-column result. Entry n of "layer, then linear map" depends only on row n of the two
  row-blocked operands, so what point t writes back is block t of one whole-array function of the arrays as the
  region finds them, and the 20 blocks tile the result.
-/
import proofs.«166976_j16226386444401_1_alg».proof.Proof.Gen.KernelIdeal.Frame
import proofs.«166976_j16226386444401_1_alg».proof.Proof.Payload
import proofs.«166976_j16226386444401_1_alg».proof.Proof.Spec

set_option maxRecDepth 16384

noncomputable section

namespace Cert.KernelIdeal.Blocks

open Idealize.ShloMosaic Idealize.ShloMosaic.TcCoe Idealize.ShloMosaic.ValueIdx Idealize.SL.Sem
open Cert.KernelIdeal Cert.KernelIdeal.Gen Cert.KernelIdeal.Body Cert.GraphConv
open Idealize.ShloMosaic.Pipeline (Dat)

variable (V : (c : Dev nD) → (b : Ref sig .tc) → Buf (Elt Ideal) ((c : Thread nD τ).loc b))

theorem hz2' : (![0, 0] : Fin 2 → Nat) = fun _ => 0 := funext fun a => by fin_cases a <;> rfl

/-- The layer and the final linear map of the arrays the second region finds; the bias row and the final bias are
    read off their one row and their one entry. -/
def G1 (c : Dev nD) : FVec Ideal Out .f32 :=
  head (conv (V c main_v31) (V c main_v18) (V c main_arg6) (V c main_arg8) (fun j => V c main_v32 (ix2 (0 : Fin 1) j)))
    (V c main_arg9) (V c main_v33 (ix2 (0 : Fin 1) (0 : Fin 1)))

/-- One entry of the stored block against one entry of the result, over plain variables. -/
theorem point1 (x0 x1 : Vec Ideal S5000x10 .f32) (x2 x4 : Vec Ideal S10x10 .f32) (x3 : Vec Ideal S1x10 .f32)
    (x5 : Vec Ideal S10x1 .f32) (x6 : Vec Ideal S1x1 .f32)
    (A X : FVec Ideal Nodes .f32) (WR WO : FVec Ideal Wts .f32) (B : Fin 10 → EReal) (WL : FVec Ideal Col .f32) (BL : EReal)
    (y : S5000x1.Idx) (i : Out.Idx)
    (h0 : ∀ k : Fin 10, x0 (ix2 (y 0) k) = A (ix2 (i 0) k)) (h1 : ∀ k : Fin 10, x1 (ix2 (y 0) k) = X (ix2 (i 0) k))
    (h2 : ∀ k j : Fin 10, x2 (ix2 k j) = WR (ix2 k j)) (h4 : ∀ k j : Fin 10, x4 (ix2 k j) = WO (ix2 k j))
    (h3 : ∀ j : Fin 10, x3 (ix2 (0 : Fin 1) j) = B j)
    (h5 : ∀ j : Fin 10, x5 (ix2 j (0 : Fin 1)) = WL (ix2 j (0 : Fin 1)))
    (h6 : x6 (ix2 (0 : Fin 1) (0 : Fin 1)) = BL) :
    k1_pay1 (F := Ideal) x0 x1 x2 x4 x3 x5 x6 y = head (conv A X WR WO B) WL BL i := by
  obtain ⟨p, u, rfl⟩ : ∃ (p : Fin 5000) (u : Fin 1), y = ix2 p u := ⟨y 0, y 1, eq_ix2 y⟩
  obtain ⟨n, u', rfl⟩ : ∃ (n : Fin 100000) (u' : Fin 1), i = ix2 n u' := ⟨i 0, i 1, eq_ix2 i⟩
  obtain rfl : u = 0 := Subsingleton.elim _ _
  rw [pay1_apply, head_ix2]
  unfold headAt
  simp only [conv_ix2]
  unfold rowsAt convAt
  simp only [h0, h1, h2, h4, h3, h5, h6]

/-- The printed index maps, decided once over the grid. -/
theorem idx_facts1 : ∀ t : Fin cfg1.N,
    win1_0.index t (0 : Fin 2) = win1_7.index t (0 : Fin 2) ∧ win1_0.index t (1 : Fin 2) = 0
    ∧ win1_1.index t (0 : Fin 2) = win1_7.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) ≤ 19 ∧ win1_7.index t (1 : Fin 2) = 0 :=
  (by decide +kernel : ∀ t : Fin grid1.N, _)

/-- Every row block is some point's. -/
theorem idx_onto1 : ∀ q0 : Fin 20, ∃ t : Fin cfg1.N, win1_7.index t = ![q0.val, 0] :=
  (by decide +kernel : ∀ q0 : Fin 20, ∃ t : Fin grid1.N, win1_7.index t = ![q0.val, 0])

/-- WHAT POINT t WRITES BACK is block t of the result function of the arrays as the region finds them. -/
theorem flushed1_eq (c : Dev nD) (t : Fin cfg1.N) :
    (dat1 V c).flushed 7 t = ((cfg1.win 7).blk t).view.read (Elt Ideal) (G1 V c) := by
  show (cfg1.win 7).cut (grid1.coords t) ((dat1 V c).after 7 t) = _
  rw [after1_7]
  unfold out1_7
  rw [View.canon_unit_zero hz2']
  simp only [View.ld_unit_zero (S := S5000x10) hz2', View.ld_unit_zero (S := S10x10) hz2', View.ld_unit_zero (S := S1x10) hz2',
    View.ld_unit_zero (S := S10x1) hz2', View.ld_unit_zero (S := S1x1) hz2']
  obtain ⟨e00, e01, e10, e11, e20, e21, e30, e31, e40, e41, e50, e51, e60, e61, -, e71⟩ := idx_facts1 t
  funext y
  show k1_pay1 (F := Ideal) (iblk1 V c 0 t) (iblk1 V c 1 t) (iblk1 V c 2 t) (iblk1 V c 4 t) (iblk1 V c 3 t) (iblk1 V c 5 t) (iblk1 V c 6 t) y
    = G1 V c (((cfg1.win 7).blk t).view.emb y)
  have hy0 : (y 0).val < 5000 := (y 0).isLt
  refine point1 (iblk1 V c 0 t) (iblk1 V c 1 t) (iblk1 V c 2 t) (iblk1 V c 4 t) (iblk1 V c 3 t) (iblk1 V c 5 t) (iblk1 V c 6 t)
    (V c main_v31) (V c main_v18) (V c main_arg6) (V c main_arg8) (fun j => V c main_v32 (ix2 (0 : Fin 1) j))
    (V c main_arg9) (V c main_v33 (ix2 (0 : Fin 1) (0 : Fin 1)))
    y (((cfg1.win 7).blk t).view.emb y) ?_ ?_ ?_ ?_ ?_ ?_ ?_
  · intro k
    show V c main_v31 (((cfg1.win 0).blk t).view.emb (ix2 (y 0) k)) = V c main_v31 (ix2 ((((cfg1.win 7).blk t).view.emb y) 0) k)
    refine congrArg (V c main_v31) (funext fun a => Fin.ext ?_)
    match a with
    | ⟨0, _⟩ => show win1_0.index t (0 : Fin 2) * 5000 + 1 * (y 0).val = win1_7.index t (0 : Fin 2) * 5000 + 1 * (y 0).val; omega
    | ⟨1, _⟩ => show win1_0.index t (1 : Fin 2) * 10 + 1 * k.val = k.val; omega
  · intro k
    show V c main_v18 (((cfg1.win 1).blk t).view.emb (ix2 (y 0) k)) = V c main_v18 (ix2 ((((cfg1.win 7).blk t).view.emb y) 0) k)
    refine congrArg (V c main_v18) (funext fun a => Fin.ext ?_)
    match a with
    | ⟨0, _⟩ => show win1_1.index t (0 : Fin 2) * 5000 + 1 * (y 0).val = win1_7.index t (0 : Fin 2) * 5000 + 1 * (y 0).val; omega
    | ⟨1, _⟩ => show win1_1.index t (1 : Fin 2) * 10 + 1 * k.val = k.val; omega
  · intro k j
    show V c main_arg6 (((cfg1.win 2).blk t).view.emb (ix2 k j)) = V c main_arg6 (ix2 k j)
    refine congrArg (V c main_arg6) (funext fun a => Fin.ext ?_)
    match a with
    | ⟨0, _⟩ => show win1_2.index t (0 : Fin 2) * 10 + 1 * k.val = k.val; omega
    | ⟨1, _⟩ => show win1_2.index t (1 : Fin 2) * 10 + 1 * j.val = j.val; omega
  · intro k j
    show V c main_arg8 (((cfg1.win 4).blk t).view.emb (ix2 k j)) = V c main_arg8 (ix2 k j)
    refine congrArg (V c main_arg8) (funext fun a => Fin.ext ?_)
    match a with
    | ⟨0, _⟩ => show win1_4.index t (0 : Fin 2) * 10 + 1 * k.val = k.val; omega
    | ⟨1, _⟩ => show win1_4.index t (1 : Fin 2) * 10 + 1 * j.val = j.val; omega
  · intro j
    show V c main_v32 (((cfg1.win 3).blk t).view.emb (ix2 (0 : Fin 1) j)) = V c main_v32 (ix2 (0 : Fin 1) j)
    refine congrArg (V c main_v32) (funext fun a => Fin.ext ?_)
    match a with
    | ⟨0, _⟩ => show win1_3.index t (0 : Fin 2) * 1 + 1 * 0 = 0; omega
    | ⟨1, _⟩ => show win1_3.index t (1 : Fin 2) * 10 + 1 * j.val = j.val; omega
  · intro j
    show V c main_arg9 (((cfg1.win 5).blk t).view.emb (ix2 j (0 : Fin 1))) = V c main_arg9 (ix2 j (0 : Fin 1))
    refine congrArg (V c main_arg9) (funext fun a => Fin.ext ?_)
    match a with
    | ⟨0, _⟩ => show win1_5.index t (0 : Fin 2) * 10 + 1 * j.val = j.val; omega
    | ⟨1, _⟩ => show win1_5.index t (1 : Fin 2) * 1 + 1 * 0 = 0; omega
  · show V c main_v33 (((cfg1.win 6).blk t).view.emb (ix2 (0 : Fin 1) (0 : Fin 1))) = V c main_v33 (ix2 (0 : Fin 1) (0 : Fin 1))
    refine congrArg (V c main_v33) (funext fun a => Fin.ext ?_)
    match a with
    | ⟨0, _⟩ => show win1_6.index t (0 : Fin 2) * 1 + 1 * 0 = 0; omega
    | ⟨1, _⟩ => show win1_6.index t (1 : Fin 2) * 1 + 1 * 0 = 0; omega

/-- An index of the result array is in point t's block iff each coordinate is in the block's range on its axis. -/
theorem mem_blk1 (t : Fin cfg1.N) (i : S100000x1.Idx) :
    i ∈ ((cfg1.win 7).blk t).view.set ↔ ∀ a : Fin 2, win1_7.index t a * S5000x1.size a ≤ (i a).val ∧ (i a).val < win1_7.index t a * S5000x1.size a + S5000x1.size a := by
  show i ∈ ((View.whole main_v34).slice (win1_7.rect t)).set ↔ _
  rw [View.set_slice_whole, Rect.mem_set_unit]
  exact Iff.rfl

/-- The 20 row blocks tile the result: row r lies in the block of point r / 5000. -/
theorem cover1 (i : S100000x1.Idx) : ∃ t : Fin cfg1.N, (cfg1.win 7).flush t = true ∧ i ∈ ((cfg1.win 7).blk t).view.set := by
  have hi0 : (i 0).val < 100000 := (i 0).isLt
  have hi1 : (i 1).val < 1 := (i 1).isLt
  obtain ⟨t, ht⟩ := idx_onto1 ⟨(i 0).val / 5000, by omega⟩
  have q0 : win1_7.index t (0 : Fin 2) = (i 0).val / 5000 := congrFun ht 0
  have q1 : win1_7.index t (1 : Fin 2) = 0 := congrFun ht 1
  refine ⟨t, flush1_7 t, ?_⟩
  rw [mem_blk1]
  intro a
  match a with
  | ⟨0, _⟩ => show win1_7.index t (0 : Fin 2) * 5000 ≤ (i 0).val ∧ (i 0).val < win1_7.index t (0 : Fin 2) * 5000 + 5000; omega
  | ⟨1, _⟩ => show win1_7.index t (1 : Fin 2) * 1 ≤ (i 1).val ∧ (i 1).val < win1_7.index t (1 : Fin 2) * 1 + 1; omega

/-- THE RESULT ARRAY after the second region: layer and linear map of the arrays as the region finds them. -/
theorem final1 (c : Dev nD) : (dat1 V c).arrAt 7 cfg1.N = G1 V c :=
  (dat1 V c).arrAt_eq_of_cover 7 (G1 V c) (fun t _ => flushed1_eq V c t) (cover1)

end Cert.KernelIdeal.Blocks

end
-- ==== Proof.KernelValue.lean ====
/-
  The kernel program's result array is the network of Spec.lean.

  @main runs a stretch of host operations, the first pallas_call, a second stretch, the second pallas_call. The
  first stretch slices the edge list into source and destination rows and computes the first neighbourhood sum; the
  first region leaves the first layer in its output array (Blocks0); the second stretch computes the neighbourhood
  sum of THAT array with the same sources, destinations and weights (the same closed function `agg`); the second
  region leaves layer-then-linear-map in the result array (Blocks1). Every other array either region reads is an
  argument, which nothing writes, or an argument's vector with a unit axis added in front.
-/
import proofs.«166976_j16226386444401_1_alg».proof.Proof.Blocks0
import proofs.«166976_j16226386444401_1_alg».proof.Proof.Blocks1
import Idealize.ShloMosaic.Lib.StableHlo.Run

set_option maxRecDepth 16384

noncomputable section

namespace Cert.KernelIdeal.Glue

open Idealize.ShloMosaic Idealize.ShloMosaic.TcCoe Idealize.ShloMosaic.ValueIdx Idealize.SL.Sem Idealize.ShloMosaic.StableHlo
open Cert.KernelIdeal Cert.KernelIdeal.Gen Cert.KernelIdeal.Blocks Cert.GraphConv

/-- The source-node row of the edge list, as a vector. -/
def src (e : (⟨S2x3200000, .i32⟩ : BufTy).Contents (Elt Ideal)) : (⟨S3200000, .i32⟩ : BufTy).Contents (Elt Ideal) :=
  shapeCast _ (extractStridedSlice S1x3200000 ![0, 0] e slices_S2x3200000_S1x3200000_0_0) shapeCasts_S1x3200000_S3200000

/-- The destination-node row of the edge list, as a vector. -/
def dst (e : (⟨S2x3200000, .i32⟩ : BufTy).Contents (Elt Ideal)) : (⟨S3200000, .i32⟩ : BufTy).Contents (Elt Ideal) :=
  shapeCast _ (extractStridedSlice S1x3200000 ![1, 0] e slices_S2x3200000_S1x3200000_1_0) shapeCasts_S1x3200000_S3200000

/-- The neighbourhood sum of node features `x` along the edges (s, d) with weights `w`: the host operations'
    composition, kept closed. -/
def agg (x : (⟨S100000x10, .f32⟩ : BufTy).Contents (Elt Ideal)) (s d : (⟨S3200000, .i32⟩ : BufTy).Contents (Elt Ideal))
    (w : (⟨S3200000, .f32⟩ : BufTy).Contents (Elt Ideal)) : (⟨S100000x10, .f32⟩ : BufTy).Contents (Elt Ideal) :=
  Host.scatterAdd scatter_S100000x10_S3200000x1_S3200000x10_1_0_0_1
    (broadcastInDim S100000x10 ![] bcast_S_S100000x10 (constant (F := Ideal) S_ .f32 0x00000000#32))
    (broadcastInDim S3200000x1 ![0] bcast_S3200000_S3200000x1_0 d)
    (mulf (Host.gather gather_S100000x10_S3200000x1_S3200000x10_1_0_n_n_0_1_110 x
        (broadcastInDim S3200000x1 ![0] bcast_S3200000_S3200000x1_0
          (select (cmpi .slt s (broadcastInDim S3200000 ![] bcast_S_S3200000 (constantI S_ 32 0#32)))
            (addi s (broadcastInDim S3200000 ![] bcast_S_S3200000 (constantI S_ 32 100000#32))) s)))
      (broadcastInDim S3200000x10 ![0, 1] bcast_S3200000x1_S3200000x10_0_1 (broadcastInDim S3200000x1 ![0] bcast_S3200000_S3200000x1_0 w)))

variable (m : (ℓ : Loc nD τ sig) → Buf (Elt Ideal) ℓ) (ρ : Dev nD → PrngReg) (c : Dev nD)

/-! ## What the first region finds -/

set_option maxHeartbeats 2000000 in
theorem V1_v16 : V1 m ρ c main_v16 = agg (m ((c : Thread nD τ).loc main_arg0)) (src (m ((c : Thread nD τ).loc main_arg1)))
    (dst (m ((c : Thread nD τ).loc main_arg1))) (m ((c : Thread nD τ).loc main_arg2)) := by
  show StableHlo.after hostOps0 (W0 m ρ c) (Proc.devRef .tc main_v16) = _
  after_results
  unfold agg src dst
  rfl

theorem V1_arg0 : V1 m ρ c main_arg0 = m ((c : Thread nD τ).loc main_arg0) := by
  show StableHlo.after hostOps0 (W0 m ρ c) (Proc.devRef .tc main_arg0) = _
  after_results

theorem V1_arg3 : V1 m ρ c main_arg3 = m ((c : Thread nD τ).loc main_arg3) := by
  show StableHlo.after hostOps0 (W0 m ρ c) (Proc.devRef .tc main_arg3) = _
  after_results

theorem V1_arg5 : V1 m ρ c main_arg5 = m ((c : Thread nD τ).loc main_arg5) := by
  show StableHlo.after hostOps0 (W0 m ρ c) (Proc.devRef .tc main_arg5) = _
  after_results

theorem V1_v17 : V1 m ρ c main_v17 = shapeCast _ (m ((c : Thread nD τ).loc main_arg4)) shapeCasts_S10_S1x10 := by
  show StableHlo.after hostOps0 (W0 m ρ c) (Proc.devRef .tc main_v17) = _
  after_results
  rfl

/-- THE FIRST REGION'S OUTPUT ARRAY: the first layer of the arguments. -/
theorem layer1_eq : G0 (V1 m ρ) c
    = conv (agg (m ((c : Thread nD τ).loc main_arg0)) (src (m ((c : Thread nD τ).loc main_arg1))) (dst (m ((c : Thread nD τ).loc main_arg1))) (m ((c : Thread nD τ).loc main_arg2)))
        (m ((c : Thread nD τ).loc main_arg0)) (m ((c : Thread nD τ).loc main_arg3)) (m ((c : Thread nD τ).loc main_arg5))
        (fun j => m ((c : Thread nD τ).loc main_arg4) (ix1 j)) := by
  unfold G0
  rw [V1_v16, V1_arg0, V1_arg3, V1_arg5, V1_v17]
  refine congrArg (conv _ _ _ _) (funext fun j => ?_)
  exact shapeCast_a_1a_apply (m ((c : Thread nD τ).loc main_arg4)) shapeCasts_S10_S1x10 (0 : Fin 1) j

/-! ## Between the regions: what the first region leaves, and what it does not touch -/

theorem W2_v18 : W2 m ρ c (Proc.devRef .tc main_v18) = G0 (V1 m ρ) c :=
  (W2_arr m ρ c 5).trans (final0 (V1 m ρ) c)

theorem W2_v1 : W2 m ρ c (Proc.devRef .tc main_v1) = src (m ((c : Thread nD τ).loc main_arg1)) := by
  rw [W2_of_ne m ρ c main_v1 (by decide)]
  show StableHlo.after hostOps0 (W0 m ρ c) (Proc.devRef .tc main_v1) = _
  after_results
  unfold src
  rfl

theorem W2_v3 : W2 m ρ c (Proc.devRef .tc main_v3) = dst (m ((c : Thread nD τ).loc main_arg1)) := by
  rw [W2_of_ne m ρ c main_v3 (by decide)]
  show StableHlo.after hostOps0 (W0 m ρ c) (Proc.devRef .tc main_v3) = _
  after_results
  unfold dst
  rfl

theorem W2_arg2 : W2 m ρ c (Proc.devRef .tc main_arg2) = m ((c : Thread nD τ).loc main_arg2) := by
  rw [W2_of_ne m ρ c main_arg2 (by decide)]
  show StableHlo.after hostOps0 (W0 m ρ c) (Proc.devRef .tc main_arg2) = _
  after_results

theorem W2_arg6 : W2 m ρ c (Proc.devRef .tc main_arg6) = m ((c : Thread nD τ).loc main_arg6) := by
  rw [W2_of_ne m ρ c main_arg6 (by decide)]
  show StableHlo.after hostOps0 (W0 m ρ c) (Proc.devRef .tc main_arg6) = _
  after_results

theorem W2_arg7 : W2 m ρ c (Proc.devRef .tc main_arg7) = m ((c : Thread nD τ).loc main_arg7) := by
  rw [W2_of_ne m ρ c main_arg7 (by decide)]
  show StableHlo.after hostOps0 (W0 m ρ c) (Proc.devRef .tc main_arg7) = _
  after_results

theorem W2_arg8 : W2 m ρ c (Proc.devRef .tc main_arg8) = m ((c : Thread nD τ).loc main_arg8) := by
  rw [W2_of_ne m ρ c main_arg8 (by decide)]
  show StableHlo.after hostOps0 (W0 m ρ c) (Proc.devRef .tc main_arg8) = _
  after_results

theorem W2_arg9 : W2 m ρ c (Proc.devRef .tc main_arg9) = m ((c : Thread nD τ).loc main_arg9) := by
  rw [W2_of_ne m ρ c main_arg9 (by decide)]
  show StableHlo.after hostOps0 (W0 m ρ c) (Proc.devRef .tc main_arg9) = _
  after_results

theorem W2_arg10 : W2 m ρ c (Proc.devRef .tc main_arg10) = m ((c : Thread nD τ).loc main_arg10) := by
  rw [W2_of_ne m ρ c main_arg10 (by decide)]
  show StableHlo.after hostOps0 (W0 m ρ c) (Proc.devRef .tc main_arg10) = _
  after_results

/-! ## What the second region finds -/

set_option maxHeartbeats 2000000 in
theorem V3_v31 : V3 m ρ c main_v31 = agg (W2 m ρ c (Proc.devRef .tc main_v18)) (W2 m ρ c (Proc.devRef .tc main_v1))
    (W2 m ρ c (Proc.devRef .tc main_v3)) (W2 m ρ c (Proc.devRef .tc main_arg2)) := by
  show StableHlo.after hostOps1 (W2 m ρ c) (Proc.devRef .tc main_v31) = _
  after_results
  unfold agg
  rfl

theorem V3_v18 : V3 m ρ c main_v18 = W2 m ρ c (Proc.devRef .tc main_v18) := by
  show StableHlo.after hostOps1 (W2 m ρ c) (Proc.devRef .tc main_v18) = _
  after_results

theorem V3_arg6 : V3 m ρ c main_arg6 = W2 m ρ c (Proc.devRef .tc main_arg6) := by
  show StableHlo.after hostOps1 (W2 m ρ c) (Proc.devRef .tc main_arg6) = _
  after_results

theorem V3_arg8 : V3 m ρ c main_arg8 = W2 m ρ c (Proc.devRef .tc main_arg8) := by
  show StableHlo.after hostOps1 (W2 m ρ c) (Proc.devRef .tc main_arg8) = _
  after_results

theorem V3_arg9 : V3 m ρ c main_arg9 = W2 m ρ c (Proc.devRef .tc main_arg9) := by
  show StableHlo.after hostOps1 (W2 m ρ c) (Proc.devRef .tc main_arg9) = _
  after_results

theorem V3_v32 : V3 m ρ c main_v32 = shapeCast _ (W2 m ρ c (Proc.devRef .tc main_arg7)) shapeCasts_S10_S1x10 := by
  show StableHlo.after hostOps1 (W2 m ρ c) (Proc.devRef .tc main_v32) = _
  after_results
  rfl

theorem V3_v33 : V3 m ρ c main_v33 = shapeCast _ (W2 m ρ c (Proc.devRef .tc main_arg10)) shapeCasts_S1_S1x1 := by
  show StableHlo.after hostOps1 (W2 m ρ c) (Proc.devRef .tc main_v33) = _
  after_results
  rfl

/-- THE RESULT ARRAY after @main: the network of the arguments over the kernel program's own neighbourhood sum. -/
theorem result_eq : W4 m ρ c (Proc.devRef .tc main_v34)
    = net (fun x => agg x (src (m ((c : Thread nD τ).loc main_arg1))) (dst (m ((c : Thread nD τ).loc main_arg1))) (m ((c : Thread nD τ).loc main_arg2)))
        (m ((c : Thread nD τ).loc main_arg0)) (m ((c : Thread nD τ).loc main_arg3)) (m ((c : Thread nD τ).loc main_arg5))
        (fun j => m ((c : Thread nD τ).loc main_arg4) (ix1 j))
        (m ((c : Thread nD τ).loc main_arg6)) (m ((c : Thread nD τ).loc main_arg8))
        (fun j => m ((c : Thread nD τ).loc main_arg7) (ix1 j))
        (m ((c : Thread nD τ).loc main_arg9)) (m ((c : Thread nD τ).loc main_arg10) (ix1 (0 : Fin 1))) := by
  refine ((W4_arr m ρ c 7).trans (final1 (V3 m ρ) c)).trans ?_
  unfold G1
  rw [V3_v31, V3_v18, V3_arg6, V3_arg8, V3_arg9, V3_v32, V3_v33, W2_v18, W2_v1, W2_v3, W2_arg2, W2_arg6, W2_arg7, W2_arg8,
    W2_arg9, W2_arg10, layer1_eq]
  unfold net
  have hb : (fun j : Fin 10 => shapeCast S1x10 (m ((c : Thread nD τ).loc main_arg7)) shapeCasts_S10_S1x10 (ix2 (0 : Fin 1) j))
      = fun j => m ((c : Thread nD τ).loc main_arg7) (ix1 j) :=
    funext fun j => shapeCast_a_1a_apply (m ((c : Thread nD τ).loc main_arg7)) shapeCasts_S10_S1x10 (0 : Fin 1) j
  have hl : shapeCast S1x1 (m ((c : Thread nD τ).loc main_arg10)) shapeCasts_S1_S1x1 (ix2 (0 : Fin 1) (0 : Fin 1))
      = m ((c : Thread nD τ).loc main_arg10) (ix1 (0 : Fin 1)) :=
    shapeCast_a_1a_apply (m ((c : Thread nD τ).loc main_arg10)) shapeCasts_S1_S1x1 (0 : Fin 1) (0 : Fin 1)
  rw [hb, hl]

end Cert.KernelIdeal.Glue

end
-- ==== Proof.RefValue.lean ====
/-
  The reference program's result, read back one operation at a time, is the network of Spec.lean.

  Its neighbourhood sum (slice the two index rows, wrap negative source indices, gather the source rows, weigh them,
  scatter-add them per destination into zeros) is named `agg` and never opened. Around it the reference computes, per
  layer, (a·Wrel + b) + x·Wroot and the rectifier — the layer of Spec.lean with the bias added before the second
  product, equal to it by commutativity and associativity of the sum — and at the end h·Wl + bl.
-/
import proofs.«166976_j16226386444401_1_alg».proof.Proof.Gen.ReferenceIdeal.Read
import proofs.«166976_j16226386444401_1_alg».proof.Proof.Spec

noncomputable section

namespace Cert.ReferenceIdeal.Glue

open Idealize.ShloMosaic Idealize.ShloMosaic.ValueIdx Cert.ReferenceIdeal Cert.ReferenceIdeal.Gen Cert.ReferenceIdeal.Read Cert.GraphConv

/-- The source-node row of the edge list, as a vector. -/
def src (e : (⟨S2x3200000, .i32⟩ : BufTy).Contents (Elt Ideal)) : (⟨S3200000, .i32⟩ : BufTy).Contents (Elt Ideal) :=
  shapeCast _ (extractStridedSlice S1x3200000 ![0, 0] e slices_S2x3200000_S1x3200000_0_0) shapeCasts_S1x3200000_S3200000

/-- The destination-node row of the edge list, as a vector. -/
def dst (e : (⟨S2x3200000, .i32⟩ : BufTy).Contents (Elt Ideal)) : (⟨S3200000, .i32⟩ : BufTy).Contents (Elt Ideal) :=
  shapeCast _ (extractStridedSlice S1x3200000 ![1, 0] e slices_S2x3200000_S1x3200000_1_0) shapeCasts_S1x3200000_S3200000

/-- The neighbourhood sum of node features `x` along the edges (s, d) with weights `w`: the host operations'
    composition, kept closed. -/
def agg (x : (⟨S100000x10, .f32⟩ : BufTy).Contents (Elt Ideal)) (s d : (⟨S3200000, .i32⟩ : BufTy).Contents (Elt Ideal))
    (w : (⟨S3200000, .f32⟩ : BufTy).Contents (Elt Ideal)) : (⟨S100000x10, .f32⟩ : BufTy).Contents (Elt Ideal) :=
  Host.scatterAdd scatter_S100000x10_S3200000x1_S3200000x10_1_0_0_1
    (broadcastInDim S100000x10 ![] bcast_S_S100000x10 (constant (F := Ideal) S_ .f32 0x00000000#32))
    (broadcastInDim S3200000x1 ![0] bcast_S3200000_S3200000x1_0 d)
    (mulf (Host.gather gather_S100000x10_S3200000x1_S3200000x10_1_0_n_n_0_1_110 x
        (broadcastInDim S3200000x1 ![0] bcast_S3200000_S3200000x1_0
          (select (cmpi .slt s (broadcastInDim S3200000 ![] bcast_S_S3200000 (constantI S_ 32 0#32)))
            (addi s (broadcastInDim S3200000 ![] bcast_S_S3200000 (constantI S_ 32 100000#32))) s)))
      (broadcastInDim S3200000x10 ![0, 1] bcast_S3200000x1_S3200000x10_0_1 (broadcastInDim S3200000x1 ![0] bcast_S3200000_S3200000x1_0 w)))

/-- The first neighbourhood sum the reference computes. -/
theorem v16_eq (x0 : (⟨S100000x10, .f32⟩ : BufTy).Contents (Elt Ideal)) (x1 : (⟨S2x3200000, .i32⟩ : BufTy).Contents (Elt Ideal))
    (x2 : (⟨S3200000, .f32⟩ : BufTy).Contents (Elt Ideal)) :
    val_main_v16 (F := Ideal) x0 x1 x2 = agg x0 (src x1) (dst x1) x2 := rfl

/-- The reference's first layer. -/
theorem layer1_eq (x0 : (⟨S100000x10, .f32⟩ : BufTy).Contents (Elt Ideal)) (x1 : (⟨S2x3200000, .i32⟩ : BufTy).Contents (Elt Ideal))
    (x2 : (⟨S3200000, .f32⟩ : BufTy).Contents (Elt Ideal)) (x3 : (⟨S10x10, .f32⟩ : BufTy).Contents (Elt Ideal))
    (x4 : (⟨S10, .f32⟩ : BufTy).Contents (Elt Ideal)) (x5 : (⟨S10x10, .f32⟩ : BufTy).Contents (Elt Ideal)) :
    val_main_v23 (F := Ideal) x0 x1 x2 x3 x4 x5 = conv (agg x0 (src x1) (dst x1) x2) x0 x3 x5 (fun j => x4 (ix1 j)) := by
  funext i
  obtain ⟨n, j, rfl⟩ : ∃ (n : Fin 100000) (j : Fin 10), i = ix2 n j := ⟨i 0, i 1, eq_ix2 i⟩
  rw [val_main_v23_apply, val_main_v22_apply, val_main_v20_apply, val_main_v17_apply, val_main_v19_apply, val_main_v18_apply,
    val_main_v21_apply, val_main_call0_v0_apply, val_main_call0_cst_apply, v16_eq, conv_ix2, ← convAt_bias_first]
  have el : ∀ k : Fin 10, lidx_main_v17 (ix2 n j) k = ix2 n k := fun k => funext fun a => Fin.ext (by
    match a with
    | ⟨0, _⟩ => rfl
    | ⟨1, _⟩ => rfl)
  have er : ∀ k : Fin 10, ridx_main_v17 (ix2 n j) k = ix2 k j := fun k => funext fun a => Fin.ext (by
    match a with
    | ⟨0, _⟩ => rfl
    | ⟨1, _⟩ => rfl)
  have el' : ∀ k : Fin 10, lidx_main_v21 (ix2 n j) k = ix2 n k := fun k => funext fun a => Fin.ext (by
    match a with
    | ⟨0, _⟩ => rfl
    | ⟨1, _⟩ => rfl)
  have er' : ∀ k : Fin 10, ridx_main_v21 (ix2 n j) k = ix2 k j := fun k => funext fun a => Fin.ext (by
    match a with
    | ⟨0, _⟩ => rfl
    | ⟨1, _⟩ => rfl)
  have eb : idx_main_v18 (idx_main_v19 (ix2 n j)) = ix1 j := funext fun a => Fin.ext (by
    match a with
    | ⟨0, _⟩ => rfl)
  simp only [el, er, el', er', eb, Ideal.maximumf_def, Ideal.addf_def, Ideal.ofBits_def, Ideal.ofBits_zero_f32]

/-- The second neighbourhood sum: the same function, of the first layer's output. -/
theorem v36_eq (x0 : (⟨S100000x10, .f32⟩ : BufTy).Contents (Elt Ideal)) (x1 : (⟨S2x3200000, .i32⟩ : BufTy).Contents (Elt Ideal))
    (x2 : (⟨S3200000, .f32⟩ : BufTy).Contents (Elt Ideal)) (x3 : (⟨S10x10, .f32⟩ : BufTy).Contents (Elt Ideal))
    (x4 : (⟨S10, .f32⟩ : BufTy).Contents (Elt Ideal)) (x5 : (⟨S10x10, .f32⟩ : BufTy).Contents (Elt Ideal)) :
    val_main_v36 (F := Ideal) x0 x1 x2 x3 x4 x5 = agg (val_main_v23 (F := Ideal) x0 x1 x2 x3 x4 x5) (src x1) (dst x1) x2 := rfl

/-- The reference's second layer, over its own neighbourhood sum and the first layer's output. -/
theorem layer2_eq (x0 : (⟨S100000x10, .f32⟩ : BufTy).Contents (Elt Ideal)) (x1 : (⟨S2x3200000, .i32⟩ : BufTy).Contents (Elt Ideal))
    (x2 : (⟨S3200000, .f32⟩ : BufTy).Contents (Elt Ideal)) (x3 : (⟨S10x10, .f32⟩ : BufTy).Contents (Elt Ideal))
    (x4 : (⟨S10, .f32⟩ : BufTy).Contents (Elt Ideal)) (x5 x6 : (⟨S10x10, .f32⟩ : BufTy).Contents (Elt Ideal))
    (x7 : (⟨S10, .f32⟩ : BufTy).Contents (Elt Ideal)) (x8 : (⟨S10x10, .f32⟩ : BufTy).Contents (Elt Ideal)) :
    val_main_v43 (F := Ideal) x0 x1 x2 x3 x4 x5 x6 x7 x8
      = conv (val_main_v36 (F := Ideal) x0 x1 x2 x3 x4 x5) (val_main_v23 (F := Ideal) x0 x1 x2 x3 x4 x5) x6 x8 (fun j => x7 (ix1 j)) := by
  funext i
  obtain ⟨n, j, rfl⟩ : ∃ (n : Fin 100000) (j : Fin 10), i = ix2 n j := ⟨i 0, i 1, eq_ix2 i⟩
  rw [val_main_v43_apply, val_main_v42_apply, val_main_v40_apply, val_main_v37_apply, val_main_v39_apply, val_main_v38_apply,
    val_main_v41_apply, val_main_call1_v0_apply, val_main_call1_cst_apply, conv_ix2, ← convAt_bias_first]
  have el : ∀ k : Fin 10, lidx_main_v37 (ix2 n j) k = ix2 n k := fun k => funext fun a => Fin.ext (by
    match a with
    | ⟨0, _⟩ => rfl
    | ⟨1, _⟩ => rfl)
  have er : ∀ k : Fin 10, ridx_main_v37 (ix2 n j) k = ix2 k j := fun k => funext fun a => Fin.ext (by
    match a with
    | ⟨0, _⟩ => rfl
    | ⟨1, _⟩ => rfl)
  have el' : ∀ k : Fin 10, lidx_main_v41 (ix2 n j) k = ix2 n k := fun k => funext fun a => Fin.ext (by
    match a with
    | ⟨0, _⟩ => rfl
    | ⟨1, _⟩ => rfl)
  have er' : ∀ k : Fin 10, ridx_main_v41 (ix2 n j) k = ix2 k j := fun k => funext fun a => Fin.ext (by
    match a with
    | ⟨0, _⟩ => rfl
    | ⟨1, _⟩ => rfl)
  have eb : idx_main_v38 (idx_main_v39 (ix2 n j)) = ix1 j := funext fun a => Fin.ext (by
    match a with
    | ⟨0, _⟩ => rfl)
  simp only [el, er, el', er', eb, Ideal.maximumf_def, Ideal.addf_def, Ideal.ofBits_def, Ideal.ofBits_zero_f32]

/-- The reference's result: the final linear map of its second layer. -/
theorem out_eq (x0 : (⟨S100000x10, .f32⟩ : BufTy).Contents (Elt Ideal)) (x1 : (⟨S2x3200000, .i32⟩ : BufTy).Contents (Elt Ideal))
    (x2 : (⟨S3200000, .f32⟩ : BufTy).Contents (Elt Ideal)) (x3 : (⟨S10x10, .f32⟩ : BufTy).Contents (Elt Ideal))
    (x4 : (⟨S10, .f32⟩ : BufTy).Contents (Elt Ideal)) (x5 x6 : (⟨S10x10, .f32⟩ : BufTy).Contents (Elt Ideal))
    (x7 : (⟨S10, .f32⟩ : BufTy).Contents (Elt Ideal)) (x8 : (⟨S10x10, .f32⟩ : BufTy).Contents (Elt Ideal))
    (x9 : (⟨S10x1, .f32⟩ : BufTy).Contents (Elt Ideal)) (x10 : (⟨S1, .f32⟩ : BufTy).Contents (Elt Ideal)) :
    val_main_v47 (F := Ideal) x0 x1 x2 x3 x4 x5 x6 x7 x8 x9 x10
      = head (val_main_v43 (F := Ideal) x0 x1 x2 x3 x4 x5 x6 x7 x8) x9 (x10 (ix1 (0 : Fin 1))) := by
  funext i
  obtain ⟨n, u, rfl⟩ : ∃ (n : Fin 100000) (u : Fin 1), i = ix2 n u := ⟨i 0, i 1, eq_ix2 i⟩
  obtain rfl : u = 0 := Subsingleton.elim _ _
  rw [val_main_v47_apply, val_main_v44_apply, val_main_v46_apply, val_main_v45_apply, head_ix2]
  unfold headAt
  have el : ∀ k : Fin 10, lidx_main_v44 (ix2 n (0 : Fin 1)) k = ix2 n k := fun k => funext fun a => Fin.ext (by
    match a with
    | ⟨0, _⟩ => rfl
    | ⟨1, _⟩ => rfl)
  have er : ∀ k : Fin 10, ridx_main_v44 (ix2 n (0 : Fin 1)) k = ix2 k (0 : Fin 1) := fun k => funext fun a => Fin.ext (by
    match a with
    | ⟨0, _⟩ => rfl
    | ⟨1, _⟩ => rfl)
  have eb : idx_main_v45 (idx_main_v46 (ix2 n (0 : Fin 1))) = ix1 (0 : Fin 1) := funext fun a => Fin.ext (by
    match a with
    | ⟨0, _⟩ => rfl)
  simp only [el, er, eb, Ideal.addf_def]

/-- THE REFERENCE'S RESULT is the network of its arguments over its own neighbourhood sum. -/
theorem result_eq (x0 : (⟨S100000x10, .f32⟩ : BufTy).Contents (Elt Ideal)) (x1 : (⟨S2x3200000, .i32⟩ : BufTy).Contents (Elt Ideal))
    (x2 : (⟨S3200000, .f32⟩ : BufTy).Contents (Elt Ideal)) (x3 : (⟨S10x10, .f32⟩ : BufTy).Contents (Elt Ideal))
    (x4 : (⟨S10, .f32⟩ : BufTy).Contents (Elt Ideal)) (x5 x6 : (⟨S10x10, .f32⟩ : BufTy).Contents (Elt Ideal))
    (x7 : (⟨S10, .f32⟩ : BufTy).Contents (Elt Ideal)) (x8 : (⟨S10x10, .f32⟩ : BufTy).Contents (Elt Ideal))
    (x9 : (⟨S10x1, .f32⟩ : BufTy).Contents (Elt Ideal)) (x10 : (⟨S1, .f32⟩ : BufTy).Contents (Elt Ideal)) :
    val_main_v47 (F := Ideal) x0 x1 x2 x3 x4 x5 x6 x7 x8 x9 x10
      = net (fun x => agg x (src x1) (dst x1) x2) x0 x3 x5 (fun j => x4 (ix1 j)) x6 x8 (fun j => x7 (ix1 j)) x9 (x10 (ix1 (0 : Fin 1))) := by
  rw [out_eq, layer2_eq, v36_eq, layer1_eq]
  rfl

end Cert.ReferenceIdeal.Glue

end
-- ==== Proof.lean ====
/-
  A two-layer graph convolution with rectifiers and a final linear map, over 100000 nodes with ten features and
  3200000 weighted edges: the kernel program against its reference, as exact extended reals.

  Both programs compute, with `agg` the neighbourhood sum (gather the source rows, weigh them, add them up per
  destination — the same host operations in both, never opened here),
      x1  = max (agg(x0)·W1rel + x0·W1root + b1, 0)
      out = max (agg(x1)·W2rel + x1·W2root + b2, 0) · Wl + bl.
  The kernel program computes each layer in a pallas_call over 20 blocks of 5000 rows (the second fused with the linear
  map), its matrix products taking operands rounded to bf16 — the identity at the ideal values — and adds the bias
  after both products; the reference adds it between them. The sum is commutative and associative on the extended
  reals, so the two agree with no condition on the inputs; the finiteness precondition is never used.

  The kernel side: LibMatmulZero (a matrix product into the zero accumulator at an entry, for any such dimension
  numbers), Payload (a body's arithmetic at an entry), Blocks0 / Blocks1 (each region's output array as one
  function of the arrays it finds), KernelRun (the run with the final memory named), KernelValue (the arrays each
  region finds, read through the host stretches; the result array as the network). The reference side: RefValue (its
  run's term, one operation at a time, as the network). Here: the two neighbourhood sums are one function, and the
  five claims.
-/
import proofs.«166976_j16226386444401_1_alg».proof.Defs
import proofs.«166976_j16226386444401_1_alg».proof.Proof.Gen.Kernel
import proofs.«166976_j16226386444401_1_alg».proof.Proof.Gen.Kernel.Skeleton
import proofs.«166976_j16226386444401_1_alg».proof.Proof.Gen.Kernel.Launch
import proofs.«166976_j16226386444401_1_alg».proof.Proof.Gen.Kernel.Points
import proofs.«166976_j16226386444401_1_alg».proof.Proof.Gen.Kernel.Frame
import proofs.«166976_j16226386444401_1_alg».proof.Proof.Gen.KernelIdeal
import proofs.«166976_j16226386444401_1_alg».proof.Proof.Gen.KernelIdeal.Skeleton
import proofs.«166976_j16226386444401_1_alg».proof.Proof.Gen.KernelIdeal.Launch
import proofs.«166976_j16226386444401_1_alg».proof.Proof.Gen.KernelIdeal.Points
import proofs.«166976_j16226386444401_1_alg».proof.Proof.Gen.KernelIdeal.Frame
import proofs.«166976_j16226386444401_1_alg».proof.Proof.Gen.ReferenceIdeal
import proofs.«166976_j16226386444401_1_alg».proof.Proof.Gen.ReferenceIdeal.Run
import proofs.«166976_j16226386444401_1_alg».proof.Proof.Gen.ReferenceIdeal.Read
import proofs.«166976_j16226386444401_1_alg».proof.Proof.Gen.Pre_finite_inputs
import proofs.«166976_j16226386444401_1_alg».proof.Proof.KernelRun
import proofs.«166976_j16226386444401_1_alg».proof.Proof.KernelValue
import proofs.«166976_j16226386444401_1_alg».proof.Proof.RefValue
import Idealize.ShloMosaic.Adequacy
import Idealize.ShloMosaic.Init

noncomputable section

namespace Cert.Proof

open Idealize.ShloMosaic Idealize.ShloMosaic.TcCoe Idealize.ShloMosaic.ValueIdx Idealize.SL.Sem Cert.GraphConv

/-! ## The two programs' neighbourhood sums are one function -/

theorem src_eq (e : (⟨Cert.KernelIdeal.S2x3200000, .i32⟩ : BufTy).Contents (Elt Ideal)) :
    Cert.ReferenceIdeal.Glue.src e = Cert.KernelIdeal.Glue.src e := rfl

theorem dst_eq (e : (⟨Cert.KernelIdeal.S2x3200000, .i32⟩ : BufTy).Contents (Elt Ideal)) :
    Cert.ReferenceIdeal.Glue.dst e = Cert.KernelIdeal.Glue.dst e := rfl

theorem agg_eq (x : (⟨Cert.KernelIdeal.S100000x10, .f32⟩ : BufTy).Contents (Elt Ideal))
    (s d : (⟨Cert.KernelIdeal.S3200000, .i32⟩ : BufTy).Contents (Elt Ideal))
    (w : (⟨Cert.KernelIdeal.S3200000, .f32⟩ : BufTy).Contents (Elt Ideal)) :
    Cert.ReferenceIdeal.Glue.agg x s d w = Cert.KernelIdeal.Glue.agg x s d w := rfl

/-! ## The claims -/

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing: the idealization is the program's own text read at the ideal values. -/
theorem preserves : Cert.preserves_Kernel_KernelIdeal := trivial

open Cert.KernelIdeal in
/-- The kernel program's run: the result array at the network of the arguments, the arguments unchanged. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread nD τ).loc main_v34)
          = net (fun x => Glue.agg x (Glue.src (m ((c.tc : Thread nD τ).loc main_arg1))) (Glue.dst (m ((c.tc : Thread nD τ).loc main_arg1))) (m ((c.tc : Thread nD τ).loc main_arg2)))
              (m ((c.tc : Thread nD τ).loc main_arg0)) (m ((c.tc : Thread nD τ).loc main_arg3)) (m ((c.tc : Thread nD τ).loc main_arg5))
              (fun j => m ((c.tc : Thread nD τ).loc main_arg4) (ix1 j))
              (m ((c.tc : Thread nD τ).loc main_arg6)) (m ((c.tc : Thread nD τ).loc main_arg8))
              (fun j => m ((c.tc : Thread nD τ).loc main_arg7) (ix1 j))
              (m ((c.tc : Thread nD τ).loc main_arg9)) (m ((c.tc : Thread nD τ).loc main_arg10) (ix1 (0 : Fin 1)))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)
        ∧ r.2.mem ((c.tc : Thread nD τ).loc main_arg9) = m ((c.tc : Thread nD τ).loc main_arg9)
        ∧ r.2.mem ((c.tc : Thread nD τ).loc main_arg10) = m ((c.tc : Thread nD τ).loc main_arg10)) :=
  (θ_run Cert.KernelIdeal.defs _ _).mono (fun r h c =>
    ⟨(h c _ (Gen.mem_uc main_v34 (by decide))).trans (Glue.result_eq m ρ c),
     (h c _ (Gen.mem_uc main_arg0 (by decide))).trans (Gen.W4_main_arg0 m ρ c),
     (h c _ (Gen.mem_uc main_arg1 (by decide))).trans (Gen.W4_main_arg1 m ρ c),
     (h c _ (Gen.mem_uc main_arg2 (by decide))).trans (Gen.W4_main_arg2 m ρ c),
     (h c _ (Gen.mem_uc main_arg3 (by decide))).trans (Gen.W4_main_arg3 m ρ c),
     (h c _ (Gen.mem_uc main_arg4 (by decide))).trans (Gen.W4_main_arg4 m ρ c),
     (h c _ (Gen.mem_uc main_arg5 (by decide))).trans (Gen.W4_main_arg5 m ρ c),
     (h c _ (Gen.mem_uc main_arg6 (by decide))).trans (Gen.W4_main_arg6 m ρ c),
     (h c _ (Gen.mem_uc main_arg7 (by decide))).trans (Gen.W4_main_arg7 m ρ c),
     (h c _ (Gen.mem_uc main_arg8 (by decide))).trans (Gen.W4_main_arg8 m ρ c),
     (h c _ (Gen.mem_uc main_arg9 (by decide))).trans (Gen.W4_main_arg9 m ρ c),
     (h c _ (Gen.mem_uc main_arg10 (by decide))).trans (Gen.W4_main_arg10 m ρ c)⟩)
    (Whole.run_mem m ρ)

/-- Both programs end with the network of the (agreeing) arguments in their result arrays. -/
theorem algebraic : Cert.algebraic_KernelIdeal_ReferenceIdeal := by
  intro m ρ m' ρ' _ hagree
  refine ⟨_, kernel_run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10⟩ := hagree c
  rw [Cert.ReferenceIdeal.Read.val_main_v47_eq, Cert.ReferenceIdeal.Glue.result_eq, a0, a1, a2, a3, a4, a5, a6, a7, a8, a9, a10]
  simp only [agg_eq, src_eq, dst_eq]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
